-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg4 : FVec F S40 .f32) (main_arg5 : FVec F S1600000 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S1600000 .f32 := Host.absf main_arg5
  let main_cst_8 : FVec F S_ .f32 := constant S_ .f32 0x7F800000#32
  let main_v25 : FVec F S1600000 .f32 := broadcastInDim S1600000 ![] bcast_S_S1600000 main_cst_8
  let main_v26 : IVec S1600000 1 := cmpf .olt main_v24 main_v25
  let main_c_9 : IVec S_ 1 := constantI S_ 1 1#1
  let main_v27 : IVec S_ 1 := (fun x v => Host.reduce IntOp.andi x v reducesTo_S1600000_S_d0 h_S_) main_v26 main_c_9
  let main_v28 : IVec S_ 1 := andi main_v23 main_v27
  main_v28

def fn {F : FTy → Type} [FloatOps F] (main_arg0 : FVec F S100000x256 .f32) (main_arg1 : FVec F S256x128 .f32) (main_arg2 : FVec F S128 .f32) (main_arg3 : FVec F S128x40 .f32) (main_arg4 : FVec F S40 .f32) (main_arg5 : FVec F S1600000 .f32) (main_arg6 : IVec S1600000 32) (main_arg7 : IVec S1600000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg1
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg3
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg4 main_arg5 main_v13 main_v16
-- ==== Kernel.lean ====
abbrev S100000x256 : Shape := ⟨2, ![100000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S100000x128 : Shape := ⟨2, ![100000, 128]⟩
abbrev S5000x256 : Shape := ⟨2, ![5000, 256]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 45
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x40, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x40, .f32⟩
  | .hbm, ⟨36, _⟩ => ⟨S1600000x1, .f32⟩
  | .hbm, ⟨37, _⟩ => ⟨S1600000x40, .f32⟩
  | .hbm, ⟨38, _⟩ => ⟨S1600000x40, .f32⟩
  | .hbm, ⟨39, _⟩ => ⟨S_, .f32⟩
  | .hbm, ⟨40, _⟩ => ⟨S100000x40, .f32⟩
  | .hbm, ⟨41, _⟩ => ⟨S1600000x1, .i32⟩
  | .hbm, ⟨42, _⟩ => ⟨S100000x40, .f32⟩
  | .hbm, ⟨43, _⟩ => ⟨S1x40, .f32⟩
  | .hbm, ⟨44, _⟩ => ⟨S100000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x40, .f32⟩
  | .local _ .vmem, ⟨9, _⟩ => ⟨S5000x40, .f32⟩
  | .local _ .vmem, ⟨10, _⟩ => ⟨S5000x40, .f32⟩
  | .local _ .vmem, ⟨11, _⟩ => ⟨S10000x40, .f32⟩
  | .local _ .vmem, ⟨12, _⟩ => ⟨S10000x40, .f32⟩
  | .local _ .vmem, ⟨13, _⟩ => ⟨S1x40, .f32⟩
  | .local _ .vmem, ⟨14, _⟩ => ⟨S10000x40, .f32⟩
  | .local _ .vmem, ⟨15, _⟩ => ⟨S10000x40, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  inb_S10000x40_S10000x40_0_0 : ∀ a, (![0, 0] : Fin 2 → Nat) a + S10000x40.size a ≤ S10000x40.size a
  h_S10000x40 : 0 < S10000x40.numel
  shapeCasts_S10000x40_S10000x40 : S10000x40.ShapeCasts S10000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x40.size a ≤ S128x40.size a
  hwx1_2 : ∀ i : grid1.Coords, EltTy.bits .f32 = 32 ∨ (Rect.block (s := S128x40) S128x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x40.size a ≤ S100000x40.size a
  hwx2_0 : ∀ i : grid2.Coords, EltTy.bits .f32 = 32 ∨ (Rect.block (s := S100000x40) S10000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x40.size a ≤ S100000x40.size a
  hwx2_2 : ∀ i : grid2.Coords, EltTy.bits .f32 = 32 ∨ (Rect.block (s := S100000x40) S10000x40.size (cc2_transform_2 i) (hinb2_2 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S10000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v30) S10000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x128 : Shape := ⟨2, ![256, 128]⟩
abbrev S128 : Shape := ⟨1, ![128]⟩
abbrev S128x40 : Shape := ⟨2, ![128, 40]⟩
abbrev S40 : Shape := ⟨1, ![40]⟩
abbrev S1600000 : Shape := ⟨1, ![1600000]⟩
abbrev S100000x128 : Shape := ⟨2, ![100000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 66
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x128, .f32⟩
  | .hbm, ⟨2, _⟩ => ⟨S128, .f32⟩
  | .hbm, ⟨3, _⟩ => ⟨S128x40, .f32⟩
  | .hbm, ⟨4, _⟩ => ⟨S40, .f32⟩
  | .hbm, ⟨5, _⟩ => ⟨S1600000, .f32⟩
  | .hbm, ⟨6, _⟩ => ⟨S1600000, .i32⟩
  | .hbm, ⟨7, _⟩ => ⟨S1600000, .i32⟩
  | .hbm, ⟨8, _⟩ => ⟨S100000x128, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S1600000x1, .f32⟩
  | .hbm, ⟨19, _⟩ => ⟨S1600000x128, .f32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x40, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x40, .f32⟩
  | .hbm, ⟨41, _⟩ => ⟨S1600000x1, .f32⟩
  | .hbm, ⟨42, _⟩ => ⟨S1600000x40, .f32⟩
  | .hbm, ⟨43, _⟩ => ⟨S1600000x40, .f32⟩
  | .hbm, ⟨44, _⟩ => ⟨S_, .f32⟩
  | .hbm, ⟨45, _⟩ => ⟨S100000x40, .f32⟩
  | .hbm, ⟨46, _⟩ => ⟨S1600000x1, .i32⟩
  | .hbm, ⟨47, _⟩ => ⟨S100000x40, .f32⟩
  | .hbm, ⟨48, _⟩ => ⟨S1x40, .f32⟩
  | .hbm, ⟨49, _⟩ => ⟨S100000x40, .f32⟩
  | .hbm, ⟨50, _⟩ => ⟨S100000x40, .f32⟩
  | .hbm, ⟨51, _⟩ => ⟨S_, .f32⟩
  | .hbm, ⟨52, _⟩ => ⟨S100000, .f32⟩
  | .hbm, ⟨53, _⟩ => ⟨S_, .f32⟩
  | .hbm, ⟨54, _⟩ => ⟨S100000, .f32⟩
  | .hbm, ⟨55, _⟩ => ⟨S100000, .f32⟩
  | .hbm, ⟨56, _⟩ => ⟨S100000x1, .f32⟩
  | .hbm, ⟨57, _⟩ => ⟨S100000x40, .f32⟩
  | .hbm, ⟨58, _⟩ => ⟨S100000x40, .f32⟩
  | .hbm, ⟨59, _⟩ => ⟨S100000x40, .f32⟩
  | .hbm, ⟨60, _⟩ => ⟨S_, .f32⟩
  | .hbm, ⟨61, _⟩ => ⟨S100000, .f32⟩
  | .hbm, ⟨62, _⟩ => ⟨S100000x1, .f32⟩
  | .hbm, ⟨63, _⟩ => ⟨S100000x1, .f32⟩
  | .hbm, ⟨64, _⟩ => ⟨S100000x40, .f32⟩
  | .hbm, ⟨65, _⟩ => ⟨S100000x40, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_cst : Ref sig .tc := ⟨.hbm, 51, rfl⟩
abbrev main_call1_v0 : Ref sig .tc := ⟨.hbm, 52, rfl⟩
abbrev main_call1_cst_0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_cst_1 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_v35 : Ref sig .tc := ⟨.hbm, 65, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The run of the idealized kernel with its result array named.

  The program is three kernel launches among two stretches of host operations. Its run ends with every buffer that outlives
  the launches holding the last of a chain of contents: the launch memory, then after each launch that launch's arrays at
  what its grid points wrote back, and after each host stretch the stretch's operations applied. So every weakly fair execution
  terminates, nothing faulting, with the result array at that last contents read at the result buffer, and the eight
  arguments as launched.
-/
import proofs.«138064_j11647951307437_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result array at the last contents of the chain and the arguments as
    launched: the five segments run from the launch state, and the final state is read against what the last segment
    leaves in every buffer that outlives the launches. -/
theorem run_result : θ_run defs (onTc (τ := τ) (main (F := F))) ⟨m, fun _ => 0, ρ⟩ (fun r => ∀ c : Dev nD,
      r.2.mem ((c.tc : Thread nD τ).loc main_v30) = W5 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v30 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Hand

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibKeepdims.lean ====
/-
  A reduction over the last axis of a matrix, kept as a column and broadcast back along the rows — the form a sum or a
  maximum with `keepdims` takes inside a kernel body: the reduction of an [a, n] matrix to a vector [a], a shape cast of the
  vector to the column [a, 1], a broadcast of the column to [a, b]. Read at (p, c), the result is the reduction of row p:
  a sum over the row's n entries, or the fold of `max` over them from the accumulator's value. The two layout steps are
  stated for any element type; the two reductions are read at the extended reals, where a sum has no order.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Lib

open Idealize.ShloMosaic Idealize.ShloMosaic.ValueIdx

section Layout
variable {α : Type}

/-- A vector [a] cast to the column [a, 1] reads, at (i, 0), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column [a, 1] broadcast to [a, b] reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- So a vector [a] kept as a column and broadcast to [a, b] reads, at (p, c), the vector at p. -/
theorem keepdims_apply {a b : ℕ} (x : (⟨1, ![a]⟩ : Shape).Idx → α) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ x h2) h3 (ix2 p c) = x (ix1 p) :=
  (broadcastTo_a1_ab_apply _ h3 p c).trans (shapeCast_a_a1_apply x h2 p 0)

end Layout

/-- The index of an [a, n] matrix that reduces along axis 1 to row p, at coordinate k, is (p, k). -/
theorem lift_row {a n : ℕ} (h : (⟨2, ![a, n]⟩ : Shape).Reduces [1] ⟨1, ![a]⟩) (p : Fin a) (k : Fin n) :
    h.lift (ix1 p) k = ix2 p k := by
  funext d; apply Fin.ext
  match d with | ⟨0, _⟩ => rfl | ⟨1, _⟩ => rfl

/-- A sum over the last axis of an [a, n] matrix, read at row p: the sum of the row's entries. -/
theorem rowSum_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin n, src (ix2 p k) :=
  (Ideal.multiReduction_add_single src acc h hφ hacc (ix1 p)).trans
    (Finset.sum_congr rfl fun k _ => congrArg src (lift_row h p k))

/-- A maximum over the last axis of an [a, n] matrix, read at row p: the fold of `max` over the row's entries from the
    accumulator's value. -/
theorem rowMax_apply {a n : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin n)).fold max (Ideal.ofBits φ acc) (fun k => src (ix2 p k)) := by
  refine (Ideal.multiReduction_maximumf_single src acc h hφ hacc (ix1 p)).trans ?_
  have hg : (src ∘ h.lift (ix1 p)) = fun k => src (ix2 p k) := funext fun k => congrArg src (lift_row h p k)
  rw [hg]
  rfl

/-- The row sum kept as a column and broadcast along the row. -/
theorem rowSum_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.add.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .add [1] ⟨1, ![a]⟩ src acc h hφ hacc) h2) h3 (ix2 p c)
      = ∑ k : Fin n, src (ix2 p k) :=
  (keepdims_apply _ h2 h3 p c).trans (rowSum_apply src acc h hφ hacc p)

/-- The row maximum kept as a column and broadcast along the row. -/
theorem rowMax_keepdims_apply {a n b : ℕ} {φ : FTy} (src : FVec Ideal ⟨2, ![a, n]⟩ φ) (acc : BitVec φ.bits)
    (h : (⟨2, ![a, n]⟩ : Shape).Reduces [1] ⟨1, ![a]⟩) (hφ : FKind.Formats φ) (hacc : acc = FKind.maximumf.neutral φ hφ)
    (h2 : (⟨1, ![a]⟩ : Shape).ShapeCasts ⟨2, ![a, 1]⟩) (h3 : (⟨2, ![a, 1]⟩ : Shape).Broadcasts ⟨2, ![a, b]⟩) (p : Fin a) (c : Fin b) :
    broadcastTo ⟨2, ![a, b]⟩ (shapeCast ⟨2, ![a, 1]⟩ (multiReduction .maximumf [1] ⟨1, ![a]⟩ src acc h hφ hacc) h2) h3 (ix2 p c)
      = (Finset.univ : Finset (Fin n)).fold max (Ideal.ofBits φ acc) (fun k => src (ix2 p k)) :=
  (keepdims_apply _ h2 h3 p c).trans (rowMax_apply src acc h hφ hacc p)

end Cert.Lib

end
-- ==== Proof.LibEntryReads.lean ====
/-
  Operations of a kernel body and of the host read at one entry, at the extended reals: rewriting rules for pushing
  an index through a body.

  A product whose dimension numbers are those of a plain matrix product ("contract axis 1 of the left operand with
  axis 0 of the right, no batch axes") — the kernel's into the zero accumulator, or the host's — of an [A, K] and a
  [K, B] matrix, read at (p, q), is ∑ₖ l (p, k) · r (k, q): only row p of the left operand enters.  Both are stated
  for ANY dimension record equal to the plain one, so that a program's own record is rewritten without restating it.
  The reciprocal square root, the exponential and the logarithm, of a vector or of a host tensor, act entry by entry.
  Together with the library's entrywise rules for the arithmetic operations these push a whole body applied to an
  index (p, q) down to the entries of its loaded blocks, by one simplification pass.
-/
import Idealize.ShloMosaic.Lib.ValueLayout
import proofs.«138064_j11647951307437_2_alg».proof.Proof.LibMatmul2
import proofs.«138064_j11647951307437_2_alg».proof.Proof.LibKeepdims

noncomputable section

open scoped BigOperators

namespace Cert.Lib

open Idealize.ShloMosaic Idealize.ShloMosaic.ValueIdx

variable {A K B : ℕ} {φ₁ φ₂ φ : FTy} {s : Shape}

/-- A product whose dimension numbers are those of a plain matrix product, into the zero accumulator, at (p, q). -/
theorem matmul_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    matmul D none l r (constant ⟨2, ![A, B]⟩ .f32 0x00000000#32) (ix2 p q) = ∑ k : Fin K, l (ix2 p k) * r (ix2 k q) := by
  subst hD
  exact Cert.Lib.matmul2_zero_apply wf l r p q

/-- The host's product with those dimension numbers, at (p, q). -/
theorem dotGeneral_plain_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (l : FVec Ideal ⟨2, ![A, K]⟩ φ₁) (r : FVec Ideal ⟨2, ![K, B]⟩ φ₂) (p : Fin A) (q : Fin B) :
    Host.dotGeneral D none l r (ix2 p q) = ∑ k : Fin K, l (ix2 p k) * r (ix2 k q) := by
  subst hD
  refine (Ideal.dotGeneral_apply (Cert.Lib.plain2 wf) none .single l r (ix2 p q)).trans ?_
  exact (Ideal.matmul_constant_zero_apply (Cert.Lib.plain2 wf) none l r (ix2 p q)).symm.trans
    (Cert.Lib.matmul2_zero_apply wf l r p q)

/-- The pointwise transcendental operations, of a kernel vector and of a host tensor, act entry by entry. -/
theorem rsqrt_apply (a : FVec Ideal s φ) (i : s.Idx) : rsqrt a i = Ideal.rsqrt (a i) := rfl
theorem exp_apply (a : FVec Ideal s φ) (i : s.Idx) : exp a i = Ideal.exp (a i) := rfl
theorem log_apply (a : FVec Ideal s φ) (i : s.Idx) : log a i = Ideal.log (a i) := rfl
theorem host_rsqrt_apply (a : FVec Ideal s φ) (i : s.Idx) : Host.rsqrt a i = Ideal.rsqrt (a i) := rfl
theorem host_exp_apply (a : FVec Ideal s φ) (i : s.Idx) : Host.exp a i = Ideal.exp (a i) := rfl
theorem host_log_apply (a : FVec Ideal s φ) (i : s.Idx) : Host.log a i = Ideal.log (a i) := rfl

end Cert.Lib

end
-- ==== Proof.LibHostReads.lean ====
/-
  The host's layout operations and row reductions read at one entry, and as whole arrays, at the extended reals.

  A vector repeated along the rows of a table reads, at (p, q), the vector at q; a scalar constant repeated over any
  shape reads the constant's value; a column (one value per row) repeated along the row reads, at (p, c), row p's value.
  A reduction along the last axis of a table with a maximum body, from a constant, is at row p the running maximum
  of the row's entries from that constant; the float sum from zero is the sum of the row's entries.
-/
import Idealize.ShloMosaic.Lib.Pipeline.Value
import Idealize.ShloMosaic.Lib.ValueIdx
import Idealize.ShloMosaic.PureOps.Ideal.Laws
import proofs.«138064_j11647951307437_2_alg».proof.Proof.LibKeepdims

noncomputable section

open scoped BigOperators

namespace Cert.Lib

open Idealize.ShloMosaic Idealize.ShloMosaic.ValueIdx

variable {A B n : ℕ} {α : Type}

/-- A vector of length B made a one-row matrix and repeated along A rows reads, at (p, q), the vector at q. -/
theorem bcast_vec_rows_apply (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) (p : Fin A) (q : Fin B) :
    broadcastInDim ⟨2, ![A, B]⟩ ![0, 1] h2 (broadcastInDim ⟨2, ![1, B]⟩ ![1] h1 v) (ix2 p q) = v (ix1 q) := by
  refine (broadcastInDim_apply ![0, 1] h2 _ (ix2 p q) (ix2 (0 : Fin 1) q) fun a => ?_).trans
    (broadcastInDim_apply ![1] h1 v (ix2 (0 : Fin 1) q) (ix1 q) fun a => ?_)
  · match a with
    | ⟨0, _⟩ => show (0 : ℕ) = if (1 : ℕ) = 1 then 0 else p.val; rw [if_pos rfl]
    | ⟨1, _⟩ =>
      show q.val = if B = 1 then 0 else q.val
      split
      · have := q.isLt; omega
      · rfl
  · match a with
    | ⟨0, _⟩ =>
      show q.val = if B = 1 then 0 else q.val
      split
      · have := q.isLt; omega
      · rfl

/-- A scalar constant repeated over a shape reads the constant's value everywhere. -/
theorem bcast_scalar_apply {s : Shape} (h : (⟨0, ![]⟩ : Shape).BroadcastsInDim s ![]) (w : BitVec 32) (i : s.Idx) :
    broadcastInDim s ![] h (constant (F := Ideal) ⟨0, ![]⟩ .f32 w) i = Ideal.ofBits .f32 w :=
  (broadcastInDim_apply ![] h _ i ix0 fun a => a.elim0).trans rfl

/-- A vector of length A made a column reads, at (p, 0), the vector at p. -/
theorem bcast_col_apply (v : (⟨1, ![A]⟩ : Shape).Idx → α) (h1 : (⟨1, ![A]⟩ : Shape).BroadcastsInDim ⟨2, ![A, 1]⟩ ![0])
    (p : Fin A) (u : Fin 1) : broadcastInDim ⟨2, ![A, 1]⟩ ![0] h1 v (ix2 p u) = v (ix1 p) := by
  refine broadcastInDim_apply ![0] h1 v (ix2 p u) (ix1 p) fun a => ?_
  match a with
  | ⟨0, _⟩ =>
    show p.val = if A = 1 then 0 else p.val
    split
    · have := p.isLt; omega
    · rfl

/-- A column repeated along the row reads, at (p, c), the column at (p, 0). -/
theorem bcast_col_rows_apply (w : (⟨2, ![A, 1]⟩ : Shape).Idx → α)
    (h2 : (⟨2, ![A, 1]⟩ : Shape).BroadcastsInDim ⟨2, ![A, n]⟩ ![0, 1]) (p : Fin A) (c : Fin n) :
    broadcastInDim ⟨2, ![A, n]⟩ ![0, 1] h2 w (ix2 p c) = w (ix2 p (0 : Fin 1)) := by
  refine broadcastInDim_apply ![0, 1] h2 w (ix2 p c) (ix2 p (0 : Fin 1)) fun a => ?_
  match a with
  | ⟨0, _⟩ =>
    show p.val = if A = 1 then 0 else p.val
    split
    · have := p.isLt; omega
    · rfl
  | ⟨1, _⟩ => show (0 : ℕ) = if (1 : ℕ) = 1 then 0 else c.val; rw [if_pos rfl]

/-- The host's reduction with a maximum body along the last axis, from a constant, at row p. -/
theorem host_rowMax_apply (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) (p : Fin A) :
    Host.reduce FloatOps.maximumf x (constant (⟨0, ![]⟩ : Shape) .f32 w) h' hu (ix1 p)
      = (Finset.univ : Finset (Fin n)).fold max (Ideal.ofBits .f32 w) (fun k => x (ix2 p k)) := by
  rw [Host.reduce_eq_fold_single FloatOps.maximumf x _ h' h hu]
  have hf : (x ∘ h.lift (ix1 p)) = fun k : Fin n => x (ix2 p k) := funext fun k => congrArg x (Cert.Lib.lift_row h p k)
  exact congrArg (fun f => Finset.fold max (Ideal.ofBits .f32 w) f (Finset.univ : Finset (Fin n))) hf

/-- The host's float sum along the last axis, from zero, at row p. -/
theorem host_rowSum_apply (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) (p : Fin A) :
    Host.reduceAdd x (constant (⟨0, ![]⟩ : Shape) .f32 0x00000000#32) h' hu (ix1 p) = ∑ k : Fin n, x (ix2 p k) := by
  show Ideal.hostReduceAdd h' x (Ideal.ofBits .f32 0x00000000#32) (ix1 p) = _
  rw [Ideal.hostReduceAdd_single h' h, Ideal.ofBits_zero_f32, zero_add]
  exact Finset.sum_congr rfl fun k _ => congrArg x (Cert.Lib.lift_row h p k)

/-! ## The same readings for whole arrays

  Each of the layout operations and reductions above as ONE function of the result index. -/

theorem bcast_vec_rows_eq (v : (⟨1, ![B]⟩ : Shape).Idx → α)
    (h1 : (⟨1, ![B]⟩ : Shape).BroadcastsInDim ⟨2, ![1, B]⟩ ![1])
    (h2 : (⟨2, ![1, B]⟩ : Shape).BroadcastsInDim ⟨2, ![A, B]⟩ ![0, 1]) :
    broadcastInDim ⟨2, ![A, B]⟩ ![0, 1] h2 (broadcastInDim ⟨2, ![1, B]⟩ ![1] h1 v)
      = fun i => v (ix1 (⟨(i 1).val, idx2_lt1 i⟩ : Fin B)) := by
  funext i
  obtain ⟨p, q, rfl⟩ : ∃ (p : Fin A) (q : Fin B), i = ix2 p q := ⟨i 0, i 1, eq_ix2 i⟩
  exact bcast_vec_rows_apply v h1 h2 p q

theorem bcast_scalar_eq {s : Shape} (h : (⟨0, ![]⟩ : Shape).BroadcastsInDim s ![]) (w : BitVec 32) :
    broadcastInDim s ![] h (constant (F := Ideal) ⟨0, ![]⟩ .f32 w) = fun _ => Ideal.ofBits .f32 w :=
  funext fun i => bcast_scalar_apply h w i

theorem bcast_col_eq (v : (⟨1, ![A]⟩ : Shape).Idx → α) (h1 : (⟨1, ![A]⟩ : Shape).BroadcastsInDim ⟨2, ![A, 1]⟩ ![0]) :
    broadcastInDim ⟨2, ![A, 1]⟩ ![0] h1 v = fun i => v (ix1 (⟨(i 0).val, idx2_lt0 i⟩ : Fin A)) := by
  funext i
  obtain ⟨p, u, rfl⟩ : ∃ (p : Fin A) (u : Fin 1), i = ix2 p u := ⟨i 0, i 1, eq_ix2 i⟩
  exact bcast_col_apply v h1 p u

theorem bcast_col_rows_eq (w : (⟨2, ![A, 1]⟩ : Shape).Idx → α)
    (h2 : (⟨2, ![A, 1]⟩ : Shape).BroadcastsInDim ⟨2, ![A, n]⟩ ![0, 1]) :
    broadcastInDim ⟨2, ![A, n]⟩ ![0, 1] h2 w = fun i => w (ix2 (⟨(i 0).val, idx2_lt0 i⟩ : Fin A) (0 : Fin 1)) := by
  funext i
  obtain ⟨p, c, rfl⟩ : ∃ (p : Fin A) (c : Fin n), i = ix2 p c := ⟨i 0, i 1, eq_ix2 i⟩
  exact bcast_col_rows_apply w h2 p c

theorem host_rowMax_eq (h : (⟨2, ![A, n]⟩ : Shape).Reduces [1] ⟨1, ![A]⟩) (x : FVec Ideal ⟨2, ![A, n]⟩ .f32) (w : BitVec 32)
    (h' : (⟨2, ![A, n]⟩ : Shape).ReducesTo [1] ⟨1, ![A]⟩) (hu : 0 < (⟨0, ![]⟩ : Shape).numel) :
    Host.reduce FloatOps.maximumf x (constant (⟨0, ![]⟩ : Shape) .f32 w) h' hu
      = fun j => (Finset.univ : Finset (Fin n)).fold max (Ideal.ofBits .f32 w) (fun k => x (ix2 (⟨(j 0).val, (j 0).isLt⟩ : Fin A) k)) := by
  funext j
  obtain ⟨p, rfl⟩ : ∃ p : Fin A, j = ix1 p := ⟨j 0, eq_ix1 j⟩
  exact host_rowMax_apply h x w h' hu p

theorem host_rowSum_eq (h : (⟨2, ![A, n]⟩ : Shape).Reduces [1] ⟨1, ![A]⟩) (x : FVec Ideal ⟨2, ![A, n]⟩ .f32)
    (h' : (⟨2, ![A, n]⟩ : Shape).ReducesTo [1] ⟨1, ![A]⟩) (hu : 0 < (⟨0, ![]⟩ : Shape).numel) :
    Host.reduceAdd x (constant (⟨0, ![]⟩ : Shape) .f32 0x00000000#32) h' hu
      = fun j => ∑ k : Fin n, x (ix2 (⟨(j 0).val, (j 0).isLt⟩ : Fin A) k) := by
  funext j
  obtain ⟨p, rfl⟩ : ∃ p : Fin A, j = ix1 p := ⟨j 0, eq_ix1 j⟩
  exact host_rowSum_apply h x h' hu p

end Cert.Lib

end
-- ==== Proof.LibDenseLayers.lean ====
/-
  One layer of a graph-SAGE network with mean aggregation, entry by entry, on the extended reals.

  A layer takes the aggregated neighbour features a (N rows of K entries), the node features x (same shape), two
  weight matrices wl, wr (K rows of B entries) and a bias vector b (B entries); its value at (p, q) before the
  activation is

      pre a x wl wr b p q = ∑ₖ a(p,k)·wl(k,q) + ∑ₖ x(p,k)·wr(k,q) + b(q).

  A hidden layer takes the maximum of that with zero; the last layer is a log-softmax along each row: with
  M(p) the running maximum of row p of `pre` from −∞,  out(p,q) = (pre(p,q) − M(p)) − log ∑ₖ exp(pre(p,k) − M(p)).
  Both are stated as ONE function of the result index.  Then the two ways the programs spell these: a tile of rows
  computed by two matrix products into zero accumulators, their sum, a bias row repeated along the rows, and the
  activation (the tile form reads the bias as a one-row matrix); and the same on whole arrays with the host's
  products, sums and repetitions.  Only sums, products, maxima and differences occur, each applied in the same
  order on both sides, so no law of the extended reals beyond "the maximum of a bound with something at least that
  bound" is needed, and nothing has to be finite.
-/
import Idealize.ShloMosaic.PureOps.Ideal.Laws
import Idealize.ShloMosaic.Lib.ValueIdx
import Idealize.ShloMosaic.Lib.ValueLayout
import proofs.«138064_j11647951307437_2_alg».proof.Proof.LibEntryReads
import proofs.«138064_j11647951307437_2_alg».proof.Proof.LibHostReads

noncomputable section

open scoped BigOperators

namespace Cert.Sage

open Idealize.ShloMosaic Idealize.ShloMosaic.ValueIdx

variable {N K B : ℕ}

/-- The layer before its activation, at row p and column q. -/
def pre (a x : FVec Ideal ⟨2, ![N, K]⟩ .f32) (wl wr : FVec Ideal ⟨2, ![K, B]⟩ .f32) (b : FVec Ideal ⟨1, ![B]⟩ .f32)
    (p : Fin N) (q : Fin B) : EReal :=
  (∑ k : Fin K, a (ix2 p k) * wl (ix2 k q)) + (∑ k : Fin K, x (ix2 p k) * wr (ix2 k q)) + b (ix1 q)

/-- A hidden layer: the maximum of the pre-activation with zero, as one function of the result index. -/
def hidden (a x : FVec Ideal ⟨2, ![N, K]⟩ .f32) (wl wr : FVec Ideal ⟨2, ![K, B]⟩ .f32) (b : FVec Ideal ⟨1, ![B]⟩ .f32) :
    FVec Ideal ⟨2, ![N, B]⟩ .f32 := fun i =>
  max (pre a x wl wr b ⟨(i 0).val, idx2_lt0 i⟩ ⟨(i 1).val, idx2_lt1 i⟩) (Ideal.ofBits .f32 0x00000000#32)

/-- The running maximum of row p of the pre-activation, from −∞. -/
def rowTop (a x : FVec Ideal ⟨2, ![N, K]⟩ .f32) (wl wr : FVec Ideal ⟨2, ![K, B]⟩ .f32) (b : FVec Ideal ⟨1, ![B]⟩ .f32)
    (p : Fin N) : EReal :=
  (Finset.univ : Finset (Fin B)).fold max (Ideal.ofBits .f32 0xFF800000#32) (fun k => pre a x wl wr b p k)

/-- The last layer at row p and column q: the log-softmax of row p of the pre-activation. -/
def lsm (a x : FVec Ideal ⟨2, ![N, K]⟩ .f32) (wl wr : FVec Ideal ⟨2, ![K, B]⟩ .f32) (b : FVec Ideal ⟨1, ![B]⟩ .f32)
    (p : Fin N) (q : Fin B) : EReal :=
  (pre a x wl wr b p q - rowTop a x wl wr b p)
    - Ideal.log (∑ k : Fin B, Ideal.exp (pre a x wl wr b p k - rowTop a x wl wr b p))

/-- The last layer as one function of the result index. -/
def final (a x : FVec Ideal ⟨2, ![N, K]⟩ .f32) (wl wr : FVec Ideal ⟨2, ![K, B]⟩ .f32) (b : FVec Ideal ⟨1, ![B]⟩ .f32) :
    FVec Ideal ⟨2, ![N, B]⟩ .f32 := fun i =>
  lsm a x wl wr b ⟨(i 0).val, idx2_lt0 i⟩ ⟨(i 1).val, idx2_lt1 i⟩

theorem hidden_ix2 (a x : FVec Ideal ⟨2, ![N, K]⟩ .f32) (wl wr : FVec Ideal ⟨2, ![K, B]⟩ .f32) (b : FVec Ideal ⟨1, ![B]⟩ .f32)
    (p : Fin N) (q : Fin B) :
    hidden a x wl wr b (ix2 p q) = max (pre a x wl wr b p q) (Ideal.ofBits .f32 0x00000000#32) := rfl

theorem final_ix2 (a x : FVec Ideal ⟨2, ![N, K]⟩ .f32) (wl wr : FVec Ideal ⟨2, ![K, B]⟩ .f32) (b : FVec Ideal ⟨1, ![B]⟩ .f32)
    (p : Fin N) (q : Fin B) : final a x wl wr b (ix2 p q) = lsm a x wl wr b p q := rfl

/-- A one-row matrix read as a vector. -/
def rowOf (r : FVec Ideal ⟨2, ![1, B]⟩ .f32) : FVec Ideal ⟨1, ![B]⟩ .f32 := fun i =>
  r (ix2 (0 : Fin 1) (⟨(i 0).val, (i 0).isLt⟩ : Fin B))

theorem rowOf_ix1 (r : FVec Ideal ⟨2, ![1, B]⟩ .f32) (q : Fin B) : rowOf r (ix1 q) = r (ix2 (0 : Fin 1) q) := rfl

/-- A vector cast to a one-row matrix and read back as a vector is the vector. -/
theorem rowOf_shapeCast (v : FVec Ideal ⟨1, ![B]⟩ .f32) (h : (⟨1, ![B]⟩ : Shape).ShapeCasts ⟨2, ![1, B]⟩) :
    rowOf (shapeCast ⟨2, ![1, B]⟩ v h) = v := by
  funext i
  obtain ⟨q, rfl⟩ : ∃ q : Fin B, i = ix1 q := ⟨i 0, eq_ix1 i⟩
  exact shapeCast_a_1a_apply v h 0 q

/-! ## A tile of rows, as a kernel body computes it -/

/-- Two matrix products of row tiles (after any change of float format) into zero accumulators, added, plus a bias row
    repeated along the rows, at (p, q): the layer's pre-activation of the tiles. -/
theorem tile_pre (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    {φ : FTy} (a x : FVec Ideal ⟨2, ![N, K]⟩ φ) (wl wr : FVec Ideal ⟨2, ![K, B]⟩ φ) (r : FVec Ideal ⟨2, ![1, B]⟩ .f32)
    (hb : (⟨2, ![1, B]⟩ : Shape).Broadcasts ⟨2, ![N, B]⟩) (p : Fin N) (q : Fin B) :
    addf (addf (matmul D none a wl (constant ⟨2, ![N, B]⟩ .f32 0x00000000#32))
        (matmul D none x wr (constant ⟨2, ![N, B]⟩ .f32 0x00000000#32))) (broadcastTo ⟨2, ![N, B]⟩ r hb) (ix2 p q)
      = (∑ k : Fin K, a (ix2 p k) * wl (ix2 k q)) + (∑ k : Fin K, x (ix2 p k) * wr (ix2 k q)) + r (ix2 (0 : Fin 1) q) := by
  show (matmul D none a wl (constant ⟨2, ![N, B]⟩ .f32 0x00000000#32) (ix2 p q)
      + matmul D none x wr (constant ⟨2, ![N, B]⟩ .f32 0x00000000#32) (ix2 p q)) + broadcastTo ⟨2, ![N, B]⟩ r hb (ix2 p q) = _
  rw [Cert.Lib.matmul_plain_apply D wf hD a wl p q, Cert.Lib.matmul_plain_apply D wf hD x wr p q,
    broadcastTo_1b_ab_apply r hb p q]

/-- The last layer's tile: from the tile's pre-activation z, the row maximum kept as a column and repeated, the
    difference, its exponential summed along the row, the logarithm of that column repeated, and the second difference,
    at (p, q). -/
theorem tile_lsm (z : FVec Ideal ⟨2, ![N, B]⟩ .f32)
    (hred : (⟨2, ![N, B]⟩ : Shape).Reduces [1] ⟨1, ![N]⟩) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![N]⟩ : Shape).ShapeCasts ⟨2, ![N, 1]⟩) (hb : (⟨2, ![N, 1]⟩ : Shape).Broadcasts ⟨2, ![N, B]⟩)
    (p : Fin N) (q : Fin B) :
    subf (subf z (broadcastTo ⟨2, ![N, B]⟩ (shapeCast ⟨2, ![N, 1]⟩ (multiReduction .maximumf [1] ⟨1, ![N]⟩ z 0xFF800000#32 hred hφ hmax) hc) hb))
        (broadcastTo ⟨2, ![N, B]⟩ (log (shapeCast ⟨2, ![N, 1]⟩ (multiReduction .add [1] ⟨1, ![N]⟩
          (exp (subf z (broadcastTo ⟨2, ![N, B]⟩ (shapeCast ⟨2, ![N, 1]⟩ (multiReduction .maximumf [1] ⟨1, ![N]⟩ z 0xFF800000#32 hred hφ hmax) hc) hb)))
          0x00000000#32 hred hφ hadd) hc)) hb) (ix2 p q)
      = (z (ix2 p q) - (Finset.univ : Finset (Fin B)).fold max (Ideal.ofBits .f32 0xFF800000#32) (fun k => z (ix2 p k)))
        - Ideal.log (∑ k : Fin B, Ideal.exp (z (ix2 p k)
            - (Finset.univ : Finset (Fin B)).fold max (Ideal.ofBits .f32 0xFF800000#32) (fun k => z (ix2 p k)))) := by
  have hm : ∀ c : Fin B, broadcastTo ⟨2, ![N, B]⟩ (shapeCast ⟨2, ![N, 1]⟩ (multiReduction .maximumf [1] ⟨1, ![N]⟩ z 0xFF800000#32 hred hφ hmax) hc) hb (ix2 p c)
      = (Finset.univ : Finset (Fin B)).fold max (Ideal.ofBits .f32 0xFF800000#32) (fun k => z (ix2 p k)) :=
    fun c => Cert.Lib.rowMax_keepdims_apply z 0xFF800000#32 hred hφ hmax hc hb p c
  show (z (ix2 p q) - broadcastTo ⟨2, ![N, B]⟩ _ hb (ix2 p q)) - broadcastTo ⟨2, ![N, B]⟩ (log _) hb (ix2 p q) = _
  rw [hm q, Cert.Lib.broadcastTo_a1_ab_apply _ hb p q]
  show _ - Ideal.log (shapeCast ⟨2, ![N, 1]⟩ _ hc (ix2 p (0 : Fin 1))) = _
  rw [Cert.Lib.shapeCast_a_a1_apply _ hc p 0, Cert.Lib.rowSum_apply _ 0x00000000#32 hred hφ hadd p]
  refine congrArg (fun s => _ - Ideal.log s) (Finset.sum_congr rfl fun k _ => ?_)
  show Ideal.exp (z (ix2 p k) - broadcastTo ⟨2, ![N, B]⟩ _ hb (ix2 p k)) = _
  rw [hm k]

/-! ## The same on whole arrays, as the host computes it -/

/-- The host's two products, their sum and the bias vector repeated along the rows, at (p, q). -/
theorem host_pre (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (a x : FVec Ideal ⟨2, ![N, K]⟩ .f32) (wl wr : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) (p : Fin N) (q : Fin B) :
    addf (addf (Host.dotGeneral D none a wl) (Host.dotGeneral D none x wr))
        (broadcastInDim ⟨2, ![N, B]⟩ ![0, 1] h2 (broadcastInDim ⟨2, ![1, B]⟩ ![1] h1 b)) (ix2 p q)
      = pre a x wl wr b p q := by
  show (Host.dotGeneral D none a wl (ix2 p q) + Host.dotGeneral D none x wr (ix2 p q))
      + broadcastInDim ⟨2, ![N, B]⟩ ![0, 1] h2 (broadcastInDim ⟨2, ![1, B]⟩ ![1] h1 b) (ix2 p q) = _
  rw [Cert.Lib.dotGeneral_plain_apply D wf hD a wl p q, Cert.Lib.dotGeneral_plain_apply D wf hD x wr p q,
    Cert.Lib.bcast_vec_rows_apply b h1 h2 p q]
  rfl

/-- The maximum of a bound with a running maximum that starts from that bound is the running maximum. -/
theorem max_fold_start {ι : Type} (s : Finset ι) (b : EReal) (f : ι → EReal) :
    max b (s.fold max b f) = s.fold max b f :=
  max_eq_right ((Finset.le_fold_max b).mpr (Or.inl le_rfl))

/-! ## The network -/

/-- Three layers over features of one width — two hidden, the last a log-softmax — each fed the aggregation `agg`
    of the features it is given beside the features themselves. -/
def net {M D O : ℕ} (agg : FVec Ideal ⟨2, ![M, D]⟩ .f32 → FVec Ideal ⟨2, ![M, D]⟩ .f32)
    (x : FVec Ideal ⟨2, ![M, D]⟩ .f32) (w1l w1r : FVec Ideal ⟨2, ![D, D]⟩ .f32) (b1 : FVec Ideal ⟨1, ![D]⟩ .f32)
    (wml wmr : FVec Ideal ⟨2, ![D, D]⟩ .f32) (bm : FVec Ideal ⟨1, ![D]⟩ .f32)
    (w2l w2r : FVec Ideal ⟨2, ![D, O]⟩ .f32) (b2 : FVec Ideal ⟨1, ![O]⟩ .f32) : FVec Ideal ⟨2, ![M, O]⟩ .f32 :=
  final (agg (hidden (agg (hidden (agg x) x w1l w1r b1)) (hidden (agg x) x w1l w1r b1) wml wmr bm))
    (hidden (agg (hidden (agg x) x w1l w1r b1)) (hidden (agg x) x w1l w1r b1) wml wmr bm) w2l w2r b2

end Cert.Sage

end
-- ==== Proof.LibScaledHead.lean ====
/-
  A dense layer followed by a row-wise log-softmax, in a kernel tile's spelling and in the host's, read at one entry.

  For a row of pre-activations `z : Fin B → EReal`, with `top z` the running maximum of the row from −∞,

      lsmRow z q = (z q − top z) − log Σₖ exp (z k − top z).

  A kernel tile of `A` rows computes, from a block `x0 : [A, K]` of features, a column `x3 : [A, 1]` of per-row factors, a
  weight matrix `x1 : [K, B]` and a one-row bias `x2 : [1, B]`: the rows of `x0` scaled by `x3`, (after a change of float
  format, the identity on the extended reals) their product with `x1` into the zero accumulator, plus the bias row repeated,
  and then the log-softmax with the row maximum and the row sum kept as columns. At `(p, q)` that is `lsmRow` of
  `k ↦ Σⱼ (x0(p,j) · x3(p,0)) · x1(j,k) + x2(0,k)`. Only row `p` of the block enters.

  The host computes on whole arrays `H : [N, K]`, `Wt : [K, B]`, `b : [B]`: the product, plus the bias vector repeated along the
  rows, and the log-softmax as jax lowers it — the row maximum from −∞, ITS MAXIMUM WITH −∞ AGAIN (the identity, since
  the running maximum starts from −∞), the difference, the row sum of exponentials from zero, the logarithm, the second
  difference. At `(p, q)` that is `lsmRow` of `k ↦ Σⱼ H(p,j) · Wt(j,k) + b(k)`.

  Sums, products, maxima and differences occur in the same order on both sides, so nothing has to be finite.
-/
import Idealize.ShloMosaic.PureOps.Ideal.Laws
import Idealize.ShloMosaic.Lib.ValueIdx
import Idealize.ShloMosaic.Lib.ValueLayout
import Idealize.ShloMosaic.Lib.Pipeline.Value
import proofs.«138064_j11647951307437_2_alg».proof.Proof.LibEntryReads
import proofs.«138064_j11647951307437_2_alg».proof.Proof.LibHostReads
import proofs.«138064_j11647951307437_2_alg».proof.Proof.LibDenseLayers

noncomputable section

open scoped BigOperators

namespace Cert.Lib

open Idealize.ShloMosaic Idealize.ShloMosaic.ValueIdx

variable {A N K B : ℕ}

/-- The running maximum of a row from −∞. -/
def top (z : Fin B → EReal) : EReal :=
  (Finset.univ : Finset (Fin B)).fold max (Ideal.ofBits .f32 0xFF800000#32) z

/-- The log-softmax of a row, at entry `q`. -/
def lsmRow (z : Fin B → EReal) (q : Fin B) : EReal :=
  (z q - top z) - Ideal.log (∑ k : Fin B, Ideal.exp (z k - top z))

/-! ## A tile of rows -/

/-- The tile's pre-activation: the block's rows scaled by the column of factors, times the weights (into the zero
    accumulator, after the changes of float format), plus the bias row repeated along the rows. -/
def tilePre (D : DotDims ⟨2, ![A, K]⟩ ⟨2, ![K, B]⟩ ⟨2, ![A, B]⟩)
    (x0 : FVec Ideal ⟨2, ![A, K]⟩ .f32) (x3 : FVec Ideal ⟨2, ![A, 1]⟩ .f32) (x1 : FVec Ideal ⟨2, ![K, B]⟩ .f32)
    (x2 : FVec Ideal ⟨2, ![1, B]⟩ .f32)
    (c0 : (⟨2, ![A, K]⟩ : Shape).ShapeCasts ⟨2, ![A, K]⟩) (c3 : (⟨2, ![A, 1]⟩ : Shape).ShapeCasts ⟨2, ![A, 1]⟩)
    (b3 : (⟨2, ![A, 1]⟩ : Shape).Broadcasts ⟨2, ![A, K]⟩) (hbits : FTy.bits .bf16 < FTy.bits .f32)
    (c1 : (⟨2, ![K, B]⟩ : Shape).ShapeCasts ⟨2, ![K, B]⟩) (c2 : (⟨2, ![1, B]⟩ : Shape).ShapeCasts ⟨2, ![1, B]⟩)
    (b2 : (⟨2, ![1, B]⟩ : Shape).Broadcasts ⟨2, ![A, B]⟩) : FVec Ideal ⟨2, ![A, B]⟩ .f32 :=
  addf (matmul D none
      (truncf .bf16 (mulf (shapeCast ⟨2, ![A, K]⟩ x0 c0) (broadcastTo ⟨2, ![A, K]⟩ (shapeCast ⟨2, ![A, 1]⟩ x3 c3) b3)) hbits)
      (truncf .bf16 (shapeCast ⟨2, ![K, B]⟩ x1 c1) hbits) (constant ⟨2, ![A, B]⟩ .f32 0x00000000#32))
    (broadcastTo ⟨2, ![A, B]⟩ (shapeCast ⟨2, ![1, B]⟩ x2 c2) b2)

/-- The tile's pre-activation at `(p, k)`. -/
theorem tilePre_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = plain2 wf)
    (x0 : FVec Ideal ⟨2, ![A, K]⟩ .f32) (x3 : FVec Ideal ⟨2, ![A, 1]⟩ .f32) (x1 : FVec Ideal ⟨2, ![K, B]⟩ .f32)
    (x2 : FVec Ideal ⟨2, ![1, B]⟩ .f32)
    (c0 : (⟨2, ![A, K]⟩ : Shape).ShapeCasts ⟨2, ![A, K]⟩) (c3 : (⟨2, ![A, 1]⟩ : Shape).ShapeCasts ⟨2, ![A, 1]⟩)
    (b3 : (⟨2, ![A, 1]⟩ : Shape).Broadcasts ⟨2, ![A, K]⟩) (hbits : FTy.bits .bf16 < FTy.bits .f32)
    (c1 : (⟨2, ![K, B]⟩ : Shape).ShapeCasts ⟨2, ![K, B]⟩) (c2 : (⟨2, ![1, B]⟩ : Shape).ShapeCasts ⟨2, ![1, B]⟩)
    (b2 : (⟨2, ![1, B]⟩ : Shape).Broadcasts ⟨2, ![A, B]⟩) (p : Fin A) (k : Fin B) :
    tilePre D x0 x3 x1 x2 c0 c3 b3 hbits c1 c2 b2 (ix2 p k)
      = (∑ j : Fin K, (x0 (ix2 p j) * x3 (ix2 p (0 : Fin 1))) * x1 (ix2 j k)) + x2 (ix2 (0 : Fin 1) k) := by
  unfold tilePre
  show matmul D none _ _ (constant ⟨2, ![A, B]⟩ .f32 0x00000000#32) (ix2 p k)
      + broadcastTo ⟨2, ![A, B]⟩ (shapeCast ⟨2, ![1, B]⟩ x2 c2) b2 (ix2 p k) = _
  rw [matmul_plain_apply D wf hD _ _ p k, broadcastTo_1b_ab_apply _ b2 p k, shapeCast_self x2 c2]
  refine congrArg (· + x2 (ix2 (0 : Fin 1) k)) (Finset.sum_congr rfl fun j _ => ?_)
  show (shapeCast ⟨2, ![A, K]⟩ x0 c0 (ix2 p j) * broadcastTo ⟨2, ![A, K]⟩ (shapeCast ⟨2, ![A, 1]⟩ x3 c3) b3 (ix2 p j))
      * shapeCast ⟨2, ![K, B]⟩ x1 c1 (ix2 j k) = _
  rw [shapeCast_self x0 c0, shapeCast_self x1 c1, broadcastTo_a1_ab_apply _ b3 p j, shapeCast_self x3 c3]

/-- The whole tile at `(p, q)`: the log-softmax of row `p` of the pre-activation. -/
theorem scaledHead_tile_apply (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = plain2 wf)
    (x0 : FVec Ideal ⟨2, ![A, K]⟩ .f32) (x3 : FVec Ideal ⟨2, ![A, 1]⟩ .f32) (x1 : FVec Ideal ⟨2, ![K, B]⟩ .f32)
    (x2 : FVec Ideal ⟨2, ![1, B]⟩ .f32)
    (c0 : (⟨2, ![A, K]⟩ : Shape).ShapeCasts ⟨2, ![A, K]⟩) (c3 : (⟨2, ![A, 1]⟩ : Shape).ShapeCasts ⟨2, ![A, 1]⟩)
    (b3 : (⟨2, ![A, 1]⟩ : Shape).Broadcasts ⟨2, ![A, K]⟩) (hbits : FTy.bits .bf16 < FTy.bits .f32)
    (c1 : (⟨2, ![K, B]⟩ : Shape).ShapeCasts ⟨2, ![K, B]⟩) (c2 : (⟨2, ![1, B]⟩ : Shape).ShapeCasts ⟨2, ![1, B]⟩)
    (b2 : (⟨2, ![1, B]⟩ : Shape).Broadcasts ⟨2, ![A, B]⟩)
    (hred : (⟨2, ![A, B]⟩ : Shape).Reduces [1] ⟨1, ![A]⟩) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf (tilePre D x0 x3 x1 x2 c0 c3 b3 hbits c1 c2 b2)
          (broadcastTo ⟨2, ![A, B]⟩ (shapeCast ⟨2, ![A, 1]⟩ (multiReduction .maximumf [1] ⟨1, ![A]⟩
            (tilePre D x0 x3 x1 x2 c0 c3 b3 hbits c1 c2 b2) 0xFF800000#32 hred hφ hmax) hc) hb))
        (broadcastTo ⟨2, ![A, B]⟩ (log (shapeCast ⟨2, ![A, 1]⟩ (multiReduction .add [1] ⟨1, ![A]⟩
          (exp (subf (tilePre D x0 x3 x1 x2 c0 c3 b3 hbits c1 c2 b2)
            (broadcastTo ⟨2, ![A, B]⟩ (shapeCast ⟨2, ![A, 1]⟩ (multiReduction .maximumf [1] ⟨1, ![A]⟩
              (tilePre D x0 x3 x1 x2 c0 c3 b3 hbits c1 c2 b2) 0xFF800000#32 hred hφ hmax) hc) hb)))
          0x00000000#32 hred hφ hadd) hc)) hb) (ix2 p q)
      = lsmRow (fun k => (∑ j : Fin K, (x0 (ix2 p j) * x3 (ix2 p (0 : Fin 1))) * x1 (ix2 j k)) + x2 (ix2 (0 : Fin 1) k)) q := by
  refine (Cert.Sage.tile_lsm (tilePre D x0 x3 x1 x2 c0 c3 b3 hbits c1 c2 b2) hred hφ hmax hadd hc hb p q).trans ?_
  simp only [tilePre_apply D wf hD]
  rfl

/-! ## Whole arrays on the host -/

/-- The host's pre-activation: the product plus the bias vector repeated along the rows. -/
def hostPre (D : DotDims ⟨2, ![N, K]⟩ ⟨2, ![K, B]⟩ ⟨2, ![N, B]⟩)
    (H : FVec Ideal ⟨2, ![N, K]⟩ .f32) (Wt : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) : FVec Ideal ⟨2, ![N, B]⟩ .f32 :=
  addf (Host.dotGeneral D none H Wt) (broadcastInDim ⟨2, ![N, B]⟩ ![0, 1] h2 (broadcastInDim ⟨2, ![1, B]⟩ ![1] h1 b))

/-- The host's pre-activation at `(p, k)`. -/
theorem hostPre_apply (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = plain2 wf)
    (H : FVec Ideal ⟨2, ![N, K]⟩ .f32) (Wt : FVec Ideal ⟨2, ![K, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1]) (p : Fin N) (k : Fin B) :
    hostPre D H Wt b h1 h2 (ix2 p k) = (∑ j : Fin K, H (ix2 p j) * Wt (ix2 j k)) + b (ix1 k) := by
  unfold hostPre
  show Host.dotGeneral D none H Wt (ix2 p k)
      + broadcastInDim ⟨2, ![N, B]⟩ ![0, 1] h2 (broadcastInDim ⟨2, ![1, B]⟩ ![1] h1 b) (ix2 p k) = _
  rw [dotGeneral_plain_apply D wf hD H Wt p k, bcast_vec_rows_apply b h1 h2 p k]

/-- A vector kept as a column and repeated along the row reads, at `(p, c)`, the vector at `p`. -/
theorem keep_col_apply (v : FVec Ideal ⟨1, ![N]⟩ .f32)
    (cN : (⟨1, ![N]⟩ : Shape).BroadcastsInDim ⟨2, ![N, 1]⟩ ![0])
    (rN : (⟨2, ![N, 1]⟩ : Shape).BroadcastsInDim ⟨2, ![N, B]⟩ ![0, 1]) (p : Fin N) (c : Fin B) :
    broadcastInDim ⟨2, ![N, B]⟩ ![0, 1] rN (broadcastInDim ⟨2, ![N, 1]⟩ ![0] cN v) (ix2 p c) = v (ix1 p) := by
  rw [bcast_col_rows_apply _ rN p c, bcast_col_apply v cN p 0]

/-- An array minus a per-row value kept as a column and repeated along the row, at `(p, c)`. -/
theorem host_shift_apply (z : FVec Ideal ⟨2, ![N, B]⟩ .f32) (mx : FVec Ideal ⟨1, ![N]⟩ .f32)
    (cN : (⟨1, ![N]⟩ : Shape).BroadcastsInDim ⟨2, ![N, 1]⟩ ![0])
    (rN : (⟨2, ![N, 1]⟩ : Shape).BroadcastsInDim ⟨2, ![N, B]⟩ ![0, 1]) (p : Fin N) (c : Fin B) :
    subf (F := Ideal) (φ := .f32) z (broadcastInDim ⟨2, ![N, B]⟩ ![0, 1] rN (broadcastInDim ⟨2, ![N, 1]⟩ ![0] cN mx)) (ix2 p c)
      = z (ix2 p c) - mx (ix1 p) := by
  rw [subf_apply, keep_col_apply mx cN rN p c]

/-- The host's row maximum from −∞, taken once more against −∞, at row `p`: the running maximum of the row. -/
theorem host_rowTop_apply (z : FVec Ideal ⟨2, ![N, B]⟩ .f32)
    (hr' : (⟨2, ![N, B]⟩ : Shape).ReducesTo [1] ⟨1, ![N]⟩) (hu : 0 < (⟨0, ![]⟩ : Shape).numel)
    (bN : (⟨0, ![]⟩ : Shape).BroadcastsInDim ⟨1, ![N]⟩ ![]) (p : Fin N) :
    maximumf (F := Ideal) (φ := .f32) (broadcastInDim ⟨1, ![N]⟩ ![] bN (constant (F := Ideal) ⟨0, ![]⟩ .f32 0xFF800000#32))
        (Host.reduce FloatOps.maximumf z (constant (⟨0, ![]⟩ : Shape) .f32 0xFF800000#32) hr' hu) (ix1 p)
      = top (fun k => z (ix2 p k)) := by
  have hr : (⟨2, ![N, B]⟩ : Shape).Reduces [1] ⟨1, ![N]⟩ := ⟨hr'.1, Nat.one_pos, hr'.2⟩
  rw [maximumf_apply, bcast_scalar_apply bN _ (ix1 p), host_rowMax_apply hr z _ hr' hu p]
  exact Cert.Sage.max_fold_start _ _ _

/-- The second half of the host's log-softmax, for any shifted array `sh`: at `(p, q)`, the entry minus the logarithm of the
    row's sum of exponentials. -/
theorem host_logsum_apply (sh : FVec Ideal ⟨2, ![N, B]⟩ .f32)
    (hr' : (⟨2, ![N, B]⟩ : Shape).ReducesTo [1] ⟨1, ![N]⟩) (hu : 0 < (⟨0, ![]⟩ : Shape).numel)
    (cN : (⟨1, ![N]⟩ : Shape).BroadcastsInDim ⟨2, ![N, 1]⟩ ![0])
    (rN : (⟨2, ![N, 1]⟩ : Shape).BroadcastsInDim ⟨2, ![N, B]⟩ ![0, 1]) (p : Fin N) (q : Fin B) :
    subf (F := Ideal) (φ := .f32) sh (broadcastInDim ⟨2, ![N, B]⟩ ![0, 1] rN (Host.log (broadcastInDim ⟨2, ![N, 1]⟩ ![0] cN
        (Host.reduceAdd (Host.exp sh) (constant (⟨0, ![]⟩ : Shape) .f32 0x00000000#32) hr' hu)))) (ix2 p q)
      = sh (ix2 p q) - Ideal.log (∑ k : Fin B, Ideal.exp (sh (ix2 p k))) := by
  have hr : (⟨2, ![N, B]⟩ : Shape).Reduces [1] ⟨1, ![N]⟩ := ⟨hr'.1, Nat.one_pos, hr'.2⟩
  rw [subf_apply, bcast_col_rows_apply _ rN p q, host_log_apply, bcast_col_apply _ cN p 0,
    host_rowSum_apply hr (Host.exp sh) hr' hu p]
  rfl

/-- The host's log-softmax of a whole array `z`, at `(p, q)`: the log-softmax of row `p`. -/
theorem host_lsm_apply (z : FVec Ideal ⟨2, ![N, B]⟩ .f32)
    (hr' : (⟨2, ![N, B]⟩ : Shape).ReducesTo [1] ⟨1, ![N]⟩) (hu : 0 < (⟨0, ![]⟩ : Shape).numel)
    (bN : (⟨0, ![]⟩ : Shape).BroadcastsInDim ⟨1, ![N]⟩ ![])
    (cN : (⟨1, ![N]⟩ : Shape).BroadcastsInDim ⟨2, ![N, 1]⟩ ![0])
    (rN : (⟨2, ![N, 1]⟩ : Shape).BroadcastsInDim ⟨2, ![N, B]⟩ ![0, 1]) (p : Fin N) (q : Fin B) :
    subf (F := Ideal) (φ := .f32)
        (subf (F := Ideal) (φ := .f32) z (broadcastInDim ⟨2, ![N, B]⟩ ![0, 1] rN (broadcastInDim ⟨2, ![N, 1]⟩ ![0] cN
          (maximumf (F := Ideal) (φ := .f32) (broadcastInDim ⟨1, ![N]⟩ ![] bN (constant (F := Ideal) ⟨0, ![]⟩ .f32 0xFF800000#32))
            (Host.reduce FloatOps.maximumf z (constant (⟨0, ![]⟩ : Shape) .f32 0xFF800000#32) hr' hu)))))
        (broadcastInDim ⟨2, ![N, B]⟩ ![0, 1] rN (Host.log (broadcastInDim ⟨2, ![N, 1]⟩ ![0] cN
          (Host.reduceAdd (Host.exp (subf (F := Ideal) (φ := .f32) z (broadcastInDim ⟨2, ![N, B]⟩ ![0, 1] rN
              (broadcastInDim ⟨2, ![N, 1]⟩ ![0] cN
                (maximumf (F := Ideal) (φ := .f32) (broadcastInDim ⟨1, ![N]⟩ ![] bN (constant (F := Ideal) ⟨0, ![]⟩ .f32 0xFF800000#32))
                  (Host.reduce FloatOps.maximumf z (constant (⟨0, ![]⟩ : Shape) .f32 0xFF800000#32) hr' hu))))))
            (constant (⟨0, ![]⟩ : Shape) .f32 0x00000000#32) hr' hu)))) (ix2 p q)
      = lsmRow (fun k => z (ix2 p k)) q := by
  unfold lsmRow
  rw [host_logsum_apply _ hr' hu cN rN p q, host_shift_apply z _ cN rN p q, host_rowTop_apply z hr' hu bN p]
  refine congrArg (fun s => _ - Ideal.log s) (Finset.sum_congr rfl fun k _ => ?_)
  rw [host_shift_apply z _ cN rN p k, host_rowTop_apply z hr' hu bN p]

end Cert.Lib

end
-- ==== Proof.GcnLayers.lean ====
/-
  The layers of a two-layer graph convolution as whole-array functions on the extended reals, and the two ways the
  programs spell each of them.

  With x : [N, K], w : [K, B] and a one-row matrix r,

      dense x w (p, q)         = ∑ₖ x(p,k) · w(k,q)
      reluDense a r w (p, q)   = ∑ₖ max (a(p,k) + r(0,k), 0) · w(k,q)
      biasLsm a r (p, q)       = lsmRow (k ↦ a(p,k) + r(0,k)) q      (the log-softmax of row p of a + r)

  A kernel tile of A rows computes each with a matrix product into the zero accumulator (after changes of float format,
  the identity on the extended reals) and, for the last, the row maximum and the row sum kept as columns; the host computes
  each on whole arrays with its own product, a bias vector repeated along the rows, and the log-softmax as jax lowers it.
  Every operation is applied in the same order on both sides, so nothing has to be finite; the one law used is that the
  maximum of −∞ with a running maximum that starts from −∞ is that running maximum.
-/
import Idealize.ShloMosaic.PureOps.Ideal.Laws
import Idealize.ShloMosaic.Lib.ValueIdx
import Idealize.ShloMosaic.Lib.ValueLayout
import Idealize.ShloMosaic.Lib.Pipeline.Value
import proofs.«138064_j11647951307437_2_alg».proof.Proof.LibEntryReads
import proofs.«138064_j11647951307437_2_alg».proof.Proof.LibHostReads
import proofs.«138064_j11647951307437_2_alg».proof.Proof.LibDenseLayers
import proofs.«138064_j11647951307437_2_alg».proof.Proof.LibScaledHead

noncomputable section

open scoped BigOperators

namespace Cert.Gcn

open Idealize.ShloMosaic Idealize.ShloMosaic.ValueIdx

variable {A N K B : ℕ}

/-! ## The three layers, each as one function of the result index -/

/-- A matrix product. -/
def dense (x : FVec Ideal ⟨2, ![N, K]⟩ .f32) (w : FVec Ideal ⟨2, ![K, B]⟩ .f32) : FVec Ideal ⟨2, ![N, B]⟩ .f32 := fun i =>
  ∑ k : Fin K, x (ix2 (⟨(i 0).val, idx2_lt0 i⟩ : Fin N) k) * w (ix2 k (⟨(i 1).val, idx2_lt1 i⟩ : Fin B))

theorem dense_ix2 (x : FVec Ideal ⟨2, ![N, K]⟩ .f32) (w : FVec Ideal ⟨2, ![K, B]⟩ .f32) (p : Fin N) (q : Fin B) :
    dense x w (ix2 p q) = ∑ k : Fin K, x (ix2 p k) * w (ix2 k q) := rfl

/-- A bias row added to every row, the maximum with zero, then a matrix product. -/
def reluDense (a : FVec Ideal ⟨2, ![N, K]⟩ .f32) (r : FVec Ideal ⟨2, ![1, K]⟩ .f32) (w : FVec Ideal ⟨2, ![K, B]⟩ .f32) :
    FVec Ideal ⟨2, ![N, B]⟩ .f32 := fun i =>
  ∑ k : Fin K, max (a (ix2 (⟨(i 0).val, idx2_lt0 i⟩ : Fin N) k) + r (ix2 (0 : Fin 1) k)) (Ideal.ofBits .f32 0x00000000#32)
    * w (ix2 k (⟨(i 1).val, idx2_lt1 i⟩ : Fin B))

theorem reluDense_ix2 (a : FVec Ideal ⟨2, ![N, K]⟩ .f32) (r : FVec Ideal ⟨2, ![1, K]⟩ .f32) (w : FVec Ideal ⟨2, ![K, B]⟩ .f32)
    (p : Fin N) (q : Fin B) :
    reluDense a r w (ix2 p q)
      = ∑ k : Fin K, max (a (ix2 p k) + r (ix2 (0 : Fin 1) k)) (Ideal.ofBits .f32 0x00000000#32) * w (ix2 k q) := rfl

/-- A bias row added to every row, then the log-softmax of each row. -/
def biasLsm (a : FVec Ideal ⟨2, ![N, B]⟩ .f32) (r : FVec Ideal ⟨2, ![1, B]⟩ .f32) : FVec Ideal ⟨2, ![N, B]⟩ .f32 := fun i =>
  Cert.Lib.lsmRow (fun k => a (ix2 (⟨(i 0).val, idx2_lt0 i⟩ : Fin N) k) + r (ix2 (0 : Fin 1) k)) (⟨(i 1).val, idx2_lt1 i⟩ : Fin B)

theorem biasLsm_ix2 (a : FVec Ideal ⟨2, ![N, B]⟩ .f32) (r : FVec Ideal ⟨2, ![1, B]⟩ .f32) (p : Fin N) (q : Fin B) :
    biasLsm a r (ix2 p q) = Cert.Lib.lsmRow (fun k => a (ix2 p k) + r (ix2 (0 : Fin 1) k)) q := rfl

/-! ## A tile of rows, as a kernel body computes it -/

/-- The product of two tiles (after the changes of float format) into the zero accumulator, at (p, q). -/
theorem tile_dense (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (x0 : FVec Ideal ⟨2, ![A, K]⟩ .f32) (x1 : FVec Ideal ⟨2, ![K, B]⟩ .f32) (hbits : FTy.bits .bf16 < FTy.bits .f32)
    (p : Fin A) (q : Fin B) :
    matmul D none (truncf .bf16 x0 hbits) (truncf .bf16 x1 hbits) (constant ⟨2, ![A, B]⟩ .f32 0x00000000#32) (ix2 p q)
      = ∑ k : Fin K, x0 (ix2 p k) * x1 (ix2 k q) :=
  Cert.Lib.matmul_plain_apply D wf hD (truncf .bf16 x0 hbits) (truncf .bf16 x1 hbits) p q

/-- The bias row repeated along the tile's rows and added, the maximum with zero, and the product with the weights into
    the zero accumulator, at (p, q). -/
theorem tile_reluDense (D : DotDims ⟨2, ![A, K]⟩ ⟨2, ![K, B]⟩ ⟨2, ![A, B]⟩)
    (wf : DotDims.WF ⟨2, ![A, K]⟩ ⟨2, ![K, B]⟩ ⟨2, ![A, B]⟩ [1] [0] [0] [1] [] []) (hD : D = Cert.Lib.plain2 wf)
    (x0 : FVec Ideal ⟨2, ![A, K]⟩ .f32) (x1 : FVec Ideal ⟨2, ![1, K]⟩ .f32) (x2 : FVec Ideal ⟨2, ![K, B]⟩ .f32)
    (c0 : (⟨2, ![A, K]⟩ : Shape).ShapeCasts ⟨2, ![A, K]⟩) (c1 : (⟨2, ![1, K]⟩ : Shape).ShapeCasts ⟨2, ![1, K]⟩)
    (b1 : (⟨2, ![1, K]⟩ : Shape).Broadcasts ⟨2, ![A, K]⟩) (hbits : FTy.bits .bf16 < FTy.bits .f32) (p : Fin A) (q : Fin B) :
    matmul D none
        (truncf .bf16 (maximumf (addf (shapeCast ⟨2, ![A, K]⟩ x0 c0) (broadcastTo ⟨2, ![A, K]⟩ (shapeCast ⟨2, ![1, K]⟩ x1 c1) b1))
          (broadcast ⟨2, ![A, K]⟩ (Scalar.ofBits (F := Ideal) .f32 0x00000000#32))) hbits)
        (truncf .bf16 x2 hbits) (constant ⟨2, ![A, B]⟩ .f32 0x00000000#32) (ix2 p q)
      = ∑ k : Fin K, max (x0 (ix2 p k) + x1 (ix2 (0 : Fin 1) k)) (Ideal.ofBits .f32 0x00000000#32) * x2 (ix2 k q) := by
  refine (Cert.Lib.matmul_plain_apply D wf hD _ _ p q).trans (Finset.sum_congr rfl fun k _ => ?_)
  show max (shapeCast ⟨2, ![A, K]⟩ x0 c0 (ix2 p k) + broadcastTo ⟨2, ![A, K]⟩ (shapeCast ⟨2, ![1, K]⟩ x1 c1) b1 (ix2 p k))
      (Ideal.ofBits .f32 0x00000000#32) * x2 (ix2 k q) = _
  rw [shapeCast_self x0 c0, broadcastTo_1b_ab_apply _ b1 p k, shapeCast_self x1 c1]

/-- The bias row repeated along the tile's rows and added, then the log-softmax with the row maximum and the row sum
    kept as columns, at (p, q). -/
theorem tile_biasLsm (x0 : FVec Ideal ⟨2, ![A, B]⟩ .f32) (x1 : FVec Ideal ⟨2, ![1, B]⟩ .f32)
    (c0 : (⟨2, ![A, B]⟩ : Shape).ShapeCasts ⟨2, ![A, B]⟩) (c1 : (⟨2, ![1, B]⟩ : Shape).ShapeCasts ⟨2, ![1, B]⟩)
    (b1 : (⟨2, ![1, B]⟩ : Shape).Broadcasts ⟨2, ![A, B]⟩)
    (hred : (⟨2, ![A, B]⟩ : Shape).Reduces [1] ⟨1, ![A]⟩) (hφ : FKind.Formats FTy.f32)
    (hmax : (0xFF800000#32 : BitVec FTy.f32.bits) = FKind.maximumf.neutral .f32 hφ)
    (hadd : (0x00000000#32 : BitVec FTy.f32.bits) = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf (addf (shapeCast ⟨2, ![A, B]⟩ x0 c0) (broadcastTo ⟨2, ![A, B]⟩ (shapeCast ⟨2, ![1, B]⟩ x1 c1) b1))
          (broadcastTo ⟨2, ![A, B]⟩ (shapeCast ⟨2, ![A, 1]⟩ (multiReduction .maximumf [1] ⟨1, ![A]⟩
            (addf (shapeCast ⟨2, ![A, B]⟩ x0 c0) (broadcastTo ⟨2, ![A, B]⟩ (shapeCast ⟨2, ![1, B]⟩ x1 c1) b1))
            0xFF800000#32 hred hφ hmax) hc) hb))
        (broadcastTo ⟨2, ![A, B]⟩ (log (shapeCast ⟨2, ![A, 1]⟩ (multiReduction .add [1] ⟨1, ![A]⟩
          (exp (subf (addf (shapeCast ⟨2, ![A, B]⟩ x0 c0) (broadcastTo ⟨2, ![A, B]⟩ (shapeCast ⟨2, ![1, B]⟩ x1 c1) b1))
            (broadcastTo ⟨2, ![A, B]⟩ (shapeCast ⟨2, ![A, 1]⟩ (multiReduction .maximumf [1] ⟨1, ![A]⟩
              (addf (shapeCast ⟨2, ![A, B]⟩ x0 c0) (broadcastTo ⟨2, ![A, B]⟩ (shapeCast ⟨2, ![1, B]⟩ x1 c1) b1))
              0xFF800000#32 hred hφ hmax) hc) hb)))
          0x00000000#32 hred hφ hadd) hc)) hb) (ix2 p q)
      = Cert.Lib.lsmRow (fun k => x0 (ix2 p k) + x1 (ix2 (0 : Fin 1) k)) q := by
  have hz : ∀ k : Fin B, addf (shapeCast ⟨2, ![A, B]⟩ x0 c0) (broadcastTo ⟨2, ![A, B]⟩ (shapeCast ⟨2, ![1, B]⟩ x1 c1) b1) (ix2 p k)
      = x0 (ix2 p k) + x1 (ix2 (0 : Fin 1) k) := fun k => by
    rw [addf_apply, shapeCast_self x0 c0, broadcastTo_1b_ab_apply _ b1 p k, shapeCast_self x1 c1]
  refine (Cert.Sage.tile_lsm _ hred hφ hmax hadd hc hb p q).trans ?_
  simp only [hz]
  rfl

/-! ## The same on whole arrays, as the host computes it -/

/-- The host's product is `dense`. -/
theorem host_dense (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (x : FVec Ideal ⟨2, ![N, K]⟩ .f32) (w : FVec Ideal ⟨2, ![K, B]⟩ .f32) :
    Host.dotGeneral D none x w = dense x w := by
  funext i
  obtain ⟨p, q, rfl⟩ : ∃ (p : Fin N) (q : Fin B), i = ix2 p q := ⟨i 0, i 1, eq_ix2 i⟩
  exact Cert.Lib.dotGeneral_plain_apply D wf hD x w p q

/-- The host's bias vector repeated along the rows and added, its maximum with a zero array, and the product with the
    weights is `reluDense` of the bias read as a one-row matrix. -/
theorem host_reluDense (D : DotDims ⟨2, ![N, K]⟩ ⟨2, ![K, B]⟩ ⟨2, ![N, B]⟩)
    (wf : DotDims.WF ⟨2, ![N, K]⟩ ⟨2, ![K, B]⟩ ⟨2, ![N, B]⟩ [1] [0] [0] [1] [] []) (hD : D = Cert.Lib.plain2 wf)
    (a : FVec Ideal ⟨2, ![N, K]⟩ .f32) (b : FVec Ideal ⟨1, ![K]⟩ .f32) (w : FVec Ideal ⟨2, ![K, B]⟩ .f32)
    (h1 : (⟨1, ![K]⟩ : Shape).BroadcastsInDim ⟨2, ![1, K]⟩ ![1])
    (h2 : (⟨2, ![1, K]⟩ : Shape).BroadcastsInDim ⟨2, ![N, K]⟩ ![0, 1])
    (h0 : (⟨0, ![]⟩ : Shape).BroadcastsInDim ⟨2, ![N, K]⟩ ![])
    (hc : (⟨1, ![K]⟩ : Shape).ShapeCasts ⟨2, ![1, K]⟩) :
    Host.dotGeneral D none
        (maximumf (F := Ideal) (φ := .f32)
          (addf (F := Ideal) (φ := .f32) a (broadcastInDim ⟨2, ![N, K]⟩ ![0, 1] h2 (broadcastInDim ⟨2, ![1, K]⟩ ![1] h1 b)))
          (broadcastInDim ⟨2, ![N, K]⟩ ![] h0 (constant (F := Ideal) ⟨0, ![]⟩ .f32 0x00000000#32))) w
      = reluDense a (shapeCast ⟨2, ![1, K]⟩ b hc) w := by
  funext i
  obtain ⟨p, q, rfl⟩ : ∃ (p : Fin N) (q : Fin B), i = ix2 p q := ⟨i 0, i 1, eq_ix2 i⟩
  refine (Cert.Lib.dotGeneral_plain_apply D wf hD _ w p q).trans ?_
  rw [reluDense_ix2]
  refine Finset.sum_congr rfl fun k _ => ?_
  rw [maximumf_apply, addf_apply, Cert.Lib.bcast_vec_rows_apply b h1 h2 p k, Cert.Lib.bcast_scalar_apply h0 _ (ix2 p k),
    shapeCast_a_1a_apply b hc 0 k]

/-- The host's bias vector repeated along the rows and added, then the log-softmax as jax lowers it, is `biasLsm` of the
    bias read as a one-row matrix. -/
theorem host_biasLsm (a : FVec Ideal ⟨2, ![N, B]⟩ .f32) (b : FVec Ideal ⟨1, ![B]⟩ .f32)
    (h1 : (⟨1, ![B]⟩ : Shape).BroadcastsInDim ⟨2, ![1, B]⟩ ![1])
    (h2 : (⟨2, ![1, B]⟩ : Shape).BroadcastsInDim ⟨2, ![N, B]⟩ ![0, 1])
    (hc : (⟨1, ![B]⟩ : Shape).ShapeCasts ⟨2, ![1, B]⟩)
    (hr' : (⟨2, ![N, B]⟩ : Shape).ReducesTo [1] ⟨1, ![N]⟩) (hu : 0 < (⟨0, ![]⟩ : Shape).numel)
    (bN : (⟨0, ![]⟩ : Shape).BroadcastsInDim ⟨1, ![N]⟩ ![])
    (cN : (⟨1, ![N]⟩ : Shape).BroadcastsInDim ⟨2, ![N, 1]⟩ ![0])
    (rN : (⟨2, ![N, 1]⟩ : Shape).BroadcastsInDim ⟨2, ![N, B]⟩ ![0, 1])
    (z : FVec Ideal ⟨2, ![N, B]⟩ .f32)
    (hz : z = addf (F := Ideal) (φ := .f32) a (broadcastInDim ⟨2, ![N, B]⟩ ![0, 1] h2 (broadcastInDim ⟨2, ![1, B]⟩ ![1] h1 b))) :
    subf (F := Ideal) (φ := .f32)
        (subf (F := Ideal) (φ := .f32) z (broadcastInDim ⟨2, ![N, B]⟩ ![0, 1] rN (broadcastInDim ⟨2, ![N, 1]⟩ ![0] cN
          (maximumf (F := Ideal) (φ := .f32) (broadcastInDim ⟨1, ![N]⟩ ![] bN (constant (F := Ideal) ⟨0, ![]⟩ .f32 0xFF800000#32))
            (Host.reduce FloatOps.maximumf z (constant (⟨0, ![]⟩ : Shape) .f32 0xFF800000#32) hr' hu)))))
        (broadcastInDim ⟨2, ![N, B]⟩ ![0, 1] rN (Host.log (broadcastInDim ⟨2, ![N, 1]⟩ ![0] cN
          (Host.reduceAdd (Host.exp (subf (F := Ideal) (φ := .f32) z (broadcastInDim ⟨2, ![N, B]⟩ ![0, 1] rN
              (broadcastInDim ⟨2, ![N, 1]⟩ ![0] cN
                (maximumf (F := Ideal) (φ := .f32) (broadcastInDim ⟨1, ![N]⟩ ![] bN (constant (F := Ideal) ⟨0, ![]⟩ .f32 0xFF800000#32))
                  (Host.reduce FloatOps.maximumf z (constant (⟨0, ![]⟩ : Shape) .f32 0xFF800000#32) hr' hu))))))
            (constant (⟨0, ![]⟩ : Shape) .f32 0x00000000#32) hr' hu))))
      = biasLsm a (shapeCast ⟨2, ![1, B]⟩ b hc) := by
  funext i
  obtain ⟨p, q, rfl⟩ : ∃ (p : Fin N) (q : Fin B), i = ix2 p q := ⟨i 0, i 1, eq_ix2 i⟩
  refine (Cert.Lib.host_lsm_apply z hr' hu bN cN rN p q).trans ?_
  rw [biasLsm_ix2]
  have hk : ∀ k : Fin B, z (ix2 p k) = a (ix2 p k) + shapeCast ⟨2, ![1, B]⟩ b hc (ix2 (0 : Fin 1) k) := fun k => by
    rw [hz, addf_apply, Cert.Lib.bcast_vec_rows_apply b h1 h2 p k, shapeCast_a_1a_apply b hc 0 k]
  simp only [hk]

end Cert.Gcn

end
-- ==== Proof.FirstLaunch.lean ====
/-
  The first launch: a matrix product, twenty blocks of 5000 rows.

  Grid point t reads rows 5000·t … 5000·t + 4999 of the left array (all 256 columns) and the whole right array, and writes
  the product of the two (into the zero accumulator, after a change of float format that is the identity on the extended
  reals) back as rows 5000·t … 5000·t + 4999 of the result. Entry (p, q) of that block is ∑ₖ left(5000·t + p, k) · right(k, q),
  which is the entry of the whole-array product at the block's place; the twenty blocks cover the 100000 rows. So whatever
  the buffers hold when the launch is entered, the result array ends at the product of the two arrays as entered.
-/
import proofs.«138064_j11647951307437_2_alg».proof.Proof.Gen.KernelIdeal.Frame
import proofs.«138064_j11647951307437_2_alg».proof.Proof.GcnLayers
import Idealize.ShloMosaic.Lib.Pipeline.Value

noncomputable section

open scoped BigOperators

namespace Cert.KernelIdeal.Hand.First

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the left window and the result window are at block row t, block column 0; the right window
    is always its one block. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's stored value at (p, q): row p of the left block against column q of the right block. -/
theorem stored_apply (x0 : Vec Ideal S5000x256 .f32) (x1 : Vec Ideal S256x128 .f32) (p : Fin 5000) (q : Fin 128) :
    k0_pay1 x0 x1 (ix2 p q) = ∑ k : Fin 256, x0 (ix2 p k) * x1 (ix2 k q) :=
  Cert.Gcn.tile_dense dot_S5000x256_S256x128_S5000x128_1_0_0_1_n_n (dot_S5000x256_S256x128_S5000x128_1_0_0_1_n_n).wf rfl x0 x1 _ p q

/-- The left window's block at point t is rows 5000·t … of the left array. -/
theorem left_block (c : Dev nD) (t : Fin cfg0.N) (y : S5000x256.Idx) (i : S100000x256.Idx)
    (h0 : (i 0).val = 5000 * t.val + (y 0).val) (h1 : (i 1).val = (y 1).val) :
    (iblk0 V c 0 t : Vec Ideal S5000x256 .f32) y = (V c main_arg0 : S100000x256.Idx → Elt Ideal .f32) i := by
  obtain ⟨e0, e1, -⟩ := index_maps t
  unfold iblk0
  rw [View.read_apply]
  show V c main_arg0 _ = V c main_arg0 _
  refine congrArg _ ?_
  funext a
  apply Fin.ext
  match a with
  | ⟨0, _⟩ => show win0_0.index t 0 * 5000 + 1 * (y 0).val = (i 0).val; rw [e0, h0]; omega
  | ⟨1, _⟩ => show win0_0.index t 1 * 256 + 1 * (y 1).val = (i 1).val; rw [e1, h1]; omega

/-- The right window's block at every point is the right array. -/
theorem right_block (c : Dev nD) (t : Fin cfg0.N) (y : S256x128.Idx) (i : S256x128.Idx)
    (h0 : (i 0).val = (y 0).val) (h1 : (i 1).val = (y 1).val) :
    (iblk0 V c 1 t : Vec Ideal S256x128 .f32) y = (V c main_arg1 : S256x128.Idx → Elt Ideal .f32) i := by
  obtain ⟨-, -, e2, e3, -⟩ := index_maps t
  unfold iblk0
  rw [View.read_apply]
  show V c main_arg1 _ = V c main_arg1 _
  refine congrArg _ ?_
  funext a
  apply Fin.ext
  match a with
  | ⟨0, _⟩ => show win0_1.index t 0 * 256 + 1 * (y 0).val = (i 0).val; rw [e2, h0]; omega
  | ⟨1, _⟩ => show win0_1.index t 1 * 128 + 1 * (y 1).val = (i 1).val; rw [e3, h1]; omega

/-- What point t writes back is block t of the product of the two arrays as the launch finds them. -/
theorem written_back (c : Dev nD) (t : Fin cfg0.N) :
    (dat0 V c).flushed 2 t = ((cfg0.win 2).blk t).view.read (Elt Ideal)
      (Cert.Gcn.dense (N := 100000) (K := 256) (B := 128) (V c main_arg0) (V c main_arg1)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x128) zero_offsets]
  obtain ⟨-, -, -, -, e4, e5⟩ := index_maps t
  funext y
  rw [View.read_apply]
  have hp : (y 0).val < 5000 := (y 0).isLt
  have hq : (y 1).val < 128 := (y 1).isLt
  have hx : (cfg0.win 2).xinj (grid0.coords t) y = ix2 (⟨(y 0).val, hp⟩ : Fin 5000) (⟨(y 1).val, hq⟩ : Fin 128) := by
    funext a
    match a with
    | ⟨0, _⟩ => rfl
    | ⟨1, _⟩ => rfl
  show k0_pay1 (iblk0 V c 0 t) (iblk0 V c 1 t) ((cfg0.win 2).xinj (grid0.coords t) y)
    = Cert.Gcn.dense (N := 100000) (K := 256) (B := 128) (V c main_arg0) (V c main_arg1) (((cfg0.win 2).blk t).view.emb y)
  rw [hx]
  refine (stored_apply _ _ _ _).trans ?_
  unfold Cert.Gcn.dense
  refine Finset.sum_congr rfl fun k _ => ?_
  refine congr (congrArg _ (left_block V c t _ _ ?_ rfl)) (right_block V c t _ _ rfl ?_)
  · show win0_2.index t 0 * 5000 + 1 * (y 0).val = 5000 * t.val + (y 0).val
    rw [e4]; omega
  · show win0_2.index t 1 * 128 + 1 * (y 1).val = (y 1).val
    rw [e5]; omega

/-- An index of the result array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Row r of the result is written back by point r / 5000. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  refine ⟨⟨(i 0).val / 5000, by rw [hN]; omega⟩, flush0_2 _, ?_⟩
  rw [mem_block]
  obtain ⟨-, -, -, -, e4, e5⟩ := index_maps ⟨(i 0).val / 5000, by rw [hN]; omega⟩
  intro a
  match a with
  | ⟨0, _⟩ =>
    show win0_2.index _ 0 * 5000 ≤ (i 0).val ∧ (i 0).val < win0_2.index _ 0 * 5000 + 5000
    rw [e4]
    show (i 0).val / 5000 * 5000 ≤ (i 0).val ∧ (i 0).val < (i 0).val / 5000 * 5000 + 5000
    omega
  | ⟨1, _⟩ =>
    show win0_2.index _ 1 * 128 ≤ (i 1).val ∧ (i 1).val < win0_2.index _ 1 * 128 + 128
    rw [e5]; omega

/-- The result array after the launch: the product of the two arrays as the launch finds them. -/
theorem result (c : Dev nD) : (dat0 V c).arrAt 2 cfg0.N
    = Cert.Gcn.dense (N := 100000) (K := 256) (B := 128) (V c main_arg0) (V c main_arg1) :=
  (dat0 V c).arrAt_eq_of_cover 2 _ (fun t _ => written_back V c t) covered

end Cert.KernelIdeal.Hand.First

end
-- ==== Proof.SecondLaunch.lean ====
/-
  The second launch: a bias row, the maximum with zero and a matrix product, twenty blocks of 5000 rows.

  Grid point t reads rows 5000·t … 5000·t + 4999 of the aggregated array (128 columns), the one-row bias and the whole weight
  array, and writes back, as rows 5000·t … of the result, the product (into the zero accumulator, after changes of float
  format that are the identity on the extended reals) of max(block + bias row, 0) with the weights. Entry (p, q) of that
  block is ∑ₖ max(agg(5000·t + p, k) + bias(0, k), 0) · w(k, q): the entry of the whole-array layer at the block's place. The
  twenty blocks cover the 100000 rows, so the result array ends at that layer of the three arrays as the launch finds them.
-/
import proofs.«138064_j11647951307437_2_alg».proof.Proof.Gen.KernelIdeal.Frame
import proofs.«138064_j11647951307437_2_alg».proof.Proof.GcnLayers
import Idealize.ShloMosaic.Lib.Pipeline.Value

noncomputable section

open scoped BigOperators

namespace Cert.KernelIdeal.Hand.Second

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the aggregated window and the result window are at block row t, block column 0; the bias
    and the weights are always their one block. -/
theorem index_maps : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's stored value at (p, q). -/
theorem stored_apply (x0 : Vec Ideal S5000x128 .f32) (x1 : Vec Ideal S1x128 .f32) (x2 : Vec Ideal S128x40 .f32)
    (p : Fin 5000) (q : Fin 40) :
    k1_pay1 x0 x1 x2 (ix2 p q)
      = ∑ k : Fin 128, max (x0 (ix2 p k) + x1 (ix2 (0 : Fin 1) k)) (Ideal.ofBits .f32 0x00000000#32) * x2 (ix2 k q) :=
  Cert.Gcn.tile_reluDense dot_S5000x128_S128x40_S5000x40_1_0_0_1_n_n (dot_S5000x128_S128x40_S5000x40_1_0_0_1_n_n).wf rfl
    x0 x1 x2 _ _ _ _ p q

/-- The aggregated window's block at point t is rows 5000·t … of the aggregated array. -/
theorem rows_block (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_v13 : S100000x128.Idx → Elt Ideal .f32) i := by
  obtain ⟨e0, e1, -⟩ := index_maps t
  unfold iblk1
  rw [View.read_apply]
  show V c main_v13 _ = V c main_v13 _
  refine congrArg _ ?_
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The bias window's block at every point is the one-row bias array. -/
theorem bias_block (c : Dev nD) (t : Fin cfg1.N) (y : S1x128.Idx) (i : S1x128.Idx)
    (h0 : (i 0).val = (y 0).val) (h1 : (i 1).val = (y 1).val) :
    (iblk1 V c 1 t : Vec Ideal S1x128 .f32) y = (V c main_v14 : S1x128.Idx → Elt Ideal .f32) i := by
  obtain ⟨-, -, e2, e3, -⟩ := index_maps t
  unfold iblk1
  rw [View.read_apply]
  show V c main_v14 _ = V c main_v14 _
  refine congrArg _ ?_
  funext a
  apply Fin.ext
  match a with
  | ⟨0, _⟩ => show win1_1.index t 0 * 1 + 1 * (y 0).val = (i 0).val; rw [e2, h0]; omega
  | ⟨1, _⟩ => show win1_1.index t 1 * 128 + 1 * (y 1).val = (i 1).val; rw [e3, h1]; omega

/-- The weight window's block at every point is the weight array. -/
theorem weight_block (c : Dev nD) (t : Fin cfg1.N) (y : S128x40.Idx) (i : S128x40.Idx)
    (h0 : (i 0).val = (y 0).val) (h1 : (i 1).val = (y 1).val) :
    (iblk1 V c 2 t : Vec Ideal S128x40 .f32) y = (V c main_arg3 : S128x40.Idx → Elt Ideal .f32) i := by
  obtain ⟨-, -, -, -, e4, e5, -⟩ := index_maps t
  unfold iblk1
  rw [View.read_apply]
  show V c main_arg3 _ = V c main_arg3 _
  refine congrArg _ ?_
  funext a
  apply Fin.ext
  match a with
  | ⟨0, _⟩ => show win1_2.index t 0 * 128 + 1 * (y 0).val = (i 0).val; rw [e4, h0]; omega
  | ⟨1, _⟩ => show win1_2.index t 1 * 40 + 1 * (y 1).val = (i 1).val; rw [e5, h1]; omega

/-- What point t writes back is block t of the layer of the three arrays as the launch finds them. -/
theorem written_back (c : Dev nD) (t : Fin cfg1.N) :
    (dat1 V c).flushed 3 t = ((cfg1.win 3).blk t).view.read (Elt Ideal)
      (Cert.Gcn.reluDense (N := 100000) (K := 128) (B := 40) (V c main_v13) (V c main_v14) (V c main_arg3)) := by
  show (cfg1.win 3).cut (grid1.coords t) ((dat1 V c).after 3 t) = _
  rw [after1_3]
  unfold out1_3
  rw [View.canon_unit_zero zero_offsets]
  simp only [View.ld_unit_zero (S := S5000x128) zero_offsets, View.ld_unit_zero (S := S1x128) zero_offsets,
    View.ld_unit_zero (S := S128x40) zero_offsets]
  obtain ⟨-, -, -, -, -, -, e6, e7⟩ := index_maps t
  funext y
  rw [View.read_apply]
  have hp : (y 0).val < 5000 := (y 0).isLt
  have hq : (y 1).val < 40 := (y 1).isLt
  have hx : (cfg1.win 3).xinj (grid1.coords t) y = ix2 (⟨(y 0).val, hp⟩ : Fin 5000) (⟨(y 1).val, hq⟩ : Fin 40) := by
    funext a
    match a with
    | ⟨0, _⟩ => rfl
    | ⟨1, _⟩ => rfl
  show k1_pay1 (iblk1 V c 0 t) (iblk1 V c 1 t) (iblk1 V c 2 t) ((cfg1.win 3).xinj (grid1.coords t) y)
    = Cert.Gcn.reluDense (N := 100000) (K := 128) (B := 40) (V c main_v13) (V c main_v14) (V c main_arg3)
        (((cfg1.win 3).blk t).view.emb y)
  rw [hx]
  refine (stored_apply _ _ _ _ _).trans ?_
  unfold Cert.Gcn.reluDense
  refine Finset.sum_congr rfl fun k _ => ?_
  refine congr (congrArg _ (congrArg (fun z => max z _) (congr (congrArg _ (rows_block V c t _ _ ?_ rfl)) (bias_block V c t _ _ rfl rfl))))
    (weight_block V c t _ _ rfl ?_)
  · show win1_3.index t 0 * 5000 + 1 * (y 0).val = 5000 * t.val + (y 0).val
    rw [e6]; omega
  · show win1_3.index t 1 * 40 + 1 * (y 1).val = (y 1).val
    rw [e7]; omega

/-- An index of the result array is in point t's block iff each coordinate is in the block's range on its axis. -/
theorem mem_block (t : Fin cfg1.N) (i : S100000x40.Idx) :
    i ∈ ((cfg1.win 3).blk t).view.set ↔ ∀ a : Fin 2, win1_3.index t a * S5000x40.size a ≤ (i a).val ∧ (i a).val < win1_3.index t a * S5000x40.size a + S5000x40.size a := by
  show i ∈ ((View.whole main_v15).slice (win1_3.rect t)).set ↔ _
  rw [View.set_slice_whole, Rect.mem_set_unit]
  exact Iff.rfl

/-- Row r of the result is written back by point r / 5000. -/
theorem covered (i : S100000x40.Idx) : ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 20 := N_1
  refine ⟨⟨(i 0).val / 5000, by rw [hN]; omega⟩, flush1_3 _, ?_⟩
  rw [mem_block]
  obtain ⟨-, -, -, -, -, -, e6, e7⟩ := index_maps ⟨(i 0).val / 5000, by rw [hN]; omega⟩
  intro a
  match a with
  | ⟨0, _⟩ =>
    show win1_3.index _ 0 * 5000 ≤ (i 0).val ∧ (i 0).val < win1_3.index _ 0 * 5000 + 5000
    rw [e6]
    show (i 0).val / 5000 * 5000 ≤ (i 0).val ∧ (i 0).val < (i 0).val / 5000 * 5000 + 5000
    omega
  | ⟨1, _⟩ =>
    show win1_3.index _ 1 * 40 ≤ (i 1).val ∧ (i 1).val < win1_3.index _ 1 * 40 + 40
    rw [e7]; omega

/-- The result array after the launch: the layer of the three arrays as the launch finds them. -/
theorem result (c : Dev nD) : (dat1 V c).arrAt 3 cfg1.N
    = Cert.Gcn.reluDense (N := 100000) (K := 128) (B := 40) (V c main_v13) (V c main_v14) (V c main_arg3) :=
  (dat1 V c).arrAt_eq_of_cover 3 _ (fun t _ => written_back V c t) covered

end Cert.KernelIdeal.Hand.Second

end
-- ==== Proof.ThirdLaunch.lean ====
/-
  The third launch: a bias row and a row-wise log-softmax, ten blocks of 10000 rows.

  Grid point t reads rows 10000·t … 10000·t + 9999 of the aggregated array (40 columns) and the one-row bias, and writes back,
  as the same rows of the result, the log-softmax of each row of block + bias row: with M the running maximum of the row from
  −∞,  (z − M) − log ∑ₖ exp(zₖ − M). Entry (p, q) of that block depends on row 10000·t + p of the aggregated array only, and is
  the entry of the whole-array layer at the block's place. The ten blocks cover the 100000 rows, so the result array ends at
  that layer of the two arrays as the launch finds them.
-/
import proofs.«138064_j11647951307437_2_alg».proof.Proof.Gen.KernelIdeal.Frame
import proofs.«138064_j11647951307437_2_alg».proof.Proof.GcnLayers
import Idealize.ShloMosaic.Lib.Pipeline.Value

noncomputable section

open scoped BigOperators

namespace Cert.KernelIdeal.Hand.Third

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- The index maps over the grid: the aggregated window and the result window are at block row t, block column 0; the bias is
    always its one block. -/
theorem index_maps : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The body's stored value at (p, q): the log-softmax of row p of block + bias row. -/
theorem stored_apply (x0 : Vec Ideal S10000x40 .f32) (x1 : Vec Ideal S1x40 .f32) (p : Fin 10000) (q : Fin 40) :
    k2_pay1 x0 x1 (ix2 p q) = Cert.Lib.lsmRow (fun k => x0 (ix2 p k) + x1 (ix2 (0 : Fin 1) k)) q :=
  Cert.Gcn.tile_biasLsm x0 x1 _ _ _ _ _ _ _ _ _ p q

/-- The aggregated window's block at point t is rows 10000·t … of the aggregated array. -/
theorem rows_block (c : Dev nD) (t : Fin cfg2.N) (y : S10000x40.Idx) (i : S100000x40.Idx)
    (h0 : (i 0).val = 10000 * t.val + (y 0).val) (h1 : (i 1).val = (y 1).val) :
    (iblk2 V c 0 t : Vec Ideal S10000x40 .f32) y = (V c main_v28 : S100000x40.Idx → Elt Ideal .f32) i := by
  obtain ⟨e0, e1, -⟩ := index_maps t
  unfold iblk2
  rw [View.read_apply]
  show V c main_v28 _ = V c main_v28 _
  refine congrArg _ ?_
  funext a
  apply Fin.ext
  match a with
  | ⟨0, _⟩ => show win2_0.index t 0 * 10000 + 1 * (y 0).val = (i 0).val; rw [e0, h0]; omega
  | ⟨1, _⟩ => show win2_0.index t 1 * 40 + 1 * (y 1).val = (i 1).val; rw [e1, h1]; omega

/-- The bias window's block at every point is the one-row bias array. -/
theorem bias_block (c : Dev nD) (t : Fin cfg2.N) (y : S1x40.Idx) (i : S1x40.Idx)
    (h0 : (i 0).val = (y 0).val) (h1 : (i 1).val = (y 1).val) :
    (iblk2 V c 1 t : Vec Ideal S1x40 .f32) y = (V c main_v29 : S1x40.Idx → Elt Ideal .f32) i := by
  obtain ⟨-, -, e2, e3, -⟩ := index_maps t
  unfold iblk2
  rw [View.read_apply]
  show V c main_v29 _ = V c main_v29 _
  refine congrArg _ ?_
  funext a
  apply Fin.ext
  match a with
  | ⟨0, _⟩ => show win2_1.index t 0 * 1 + 1 * (y 0).val = (i 0).val; rw [e2, h0]; omega
  | ⟨1, _⟩ => show win2_1.index t 1 * 40 + 1 * (y 1).val = (i 1).val; rw [e3, h1]; omega

/-- What point t writes back is block t of the layer of the two arrays as the launch finds them. -/
theorem written_back (c : Dev nD) (t : Fin cfg2.N) :
    (dat2 V c).flushed 2 t = ((cfg2.win 2).blk t).view.read (Elt Ideal)
      (Cert.Gcn.biasLsm (N := 100000) (B := 40) (V c main_v28) (V c main_v29)) := by
  show (cfg2.win 2).cut (grid2.coords t) ((dat2 V c).after 2 t) = _
  rw [after2_2]
  unfold out2_2
  rw [View.canon_unit_zero zero_offsets]
  simp only [View.ld_unit_zero (S := S10000x40) zero_offsets, View.ld_unit_zero (S := S1x40) zero_offsets]
  obtain ⟨-, -, -, -, e4, e5⟩ := index_maps t
  funext y
  rw [View.read_apply]
  have hp : (y 0).val < 10000 := (y 0).isLt
  have hq : (y 1).val < 40 := (y 1).isLt
  have hx : (cfg2.win 2).xinj (grid2.coords t) y = ix2 (⟨(y 0).val, hp⟩ : Fin 10000) (⟨(y 1).val, hq⟩ : Fin 40) := by
    funext a
    match a with
    | ⟨0, _⟩ => rfl
    | ⟨1, _⟩ => rfl
  show k2_pay1 (iblk2 V c 0 t) (iblk2 V c 1 t) ((cfg2.win 2).xinj (grid2.coords t) y)
    = Cert.Gcn.biasLsm (N := 100000) (B := 40) (V c main_v28) (V c main_v29) (((cfg2.win 2).blk t).view.emb y)
  rw [hx]
  refine (stored_apply _ _ _ _).trans ?_
  unfold Cert.Gcn.biasLsm
  refine congr (congrArg Cert.Lib.lsmRow (funext fun k => ?_)) (Fin.ext ?_)
  · refine congr (congrArg _ (rows_block V c t _ _ ?_ rfl)) (bias_block V c t _ _ rfl rfl)
    show win2_2.index t 0 * 10000 + 1 * (y 0).val = 10000 * t.val + (y 0).val
    rw [e4]; omega
  · show (y 1).val = win2_2.index t 1 * 40 + 1 * (y 1).val
    rw [e5]; omega

/-- An index of the result array is in point t's block iff each coordinate is in the block's range on its axis. -/
theorem mem_block (t : Fin cfg2.N) (i : S100000x40.Idx) :
    i ∈ ((cfg2.win 2).blk t).view.set ↔ ∀ a : Fin 2, win2_2.index t a * S10000x40.size a ≤ (i a).val ∧ (i a).val < win2_2.index t a * S10000x40.size a + S10000x40.size a := by
  show i ∈ ((View.whole main_v30).slice (win2_2.rect t)).set ↔ _
  rw [View.set_slice_whole, Rect.mem_set_unit]
  exact Iff.rfl

/-- Row r of the result is written back by point r / 10000. -/
theorem covered (i : S100000x40.Idx) : ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 10 := N_2
  refine ⟨⟨(i 0).val / 10000, by rw [hN]; omega⟩, flush2_2 _, ?_⟩
  rw [mem_block]
  obtain ⟨-, -, -, -, e4, e5⟩ := index_maps ⟨(i 0).val / 10000, by rw [hN]; omega⟩
  intro a
  match a with
  | ⟨0, _⟩ =>
    show win2_2.index _ 0 * 10000 ≤ (i 0).val ∧ (i 0).val < win2_2.index _ 0 * 10000 + 10000
    rw [e4]
    show (i 0).val / 10000 * 10000 ≤ (i 0).val ∧ (i 0).val < (i 0).val / 10000 * 10000 + 10000
    omega
  | ⟨1, _⟩ =>
    show win2_2.index _ 1 * 40 ≤ (i 1).val ∧ (i 1).val < win2_2.index _ 1 * 40 + 40
    rw [e5]; omega

/-- The result array after the launch: the layer of the two arrays as the launch finds them. -/
theorem result (c : Dev nD) : (dat2 V c).arrAt 2 cfg2.N
    = Cert.Gcn.biasLsm (N := 100000) (B := 40) (V c main_v28) (V c main_v29) :=
  (dat2 V c).arrAt_eq_of_cover 2 _ (fun t _ => written_back V c t) covered

end Cert.KernelIdeal.Hand.Third

end
-- ==== Proof.KernelValue.lean ====
/-
  What the idealized kernel's result array holds after the run, as one function of the eight arguments.

  The run's chain of contents is read from the end back to the launch memory. The result array is what the third launch leaves
  (the bias row and the row-wise log-softmax of the array it is given); that array is what the second host stretch computes
  from what the second launch leaves — rows gathered along the edges' sources, weighted by the edge, and summed into the
  edges' destinations —; the second launch leaves the bias row, the maximum with zero and the product with the second weights of
  what the first host stretch computes in the same way from what the first launch leaves, the product of the features with
  the first weights. No launch and no host operation writes an argument, so every argument read on the way is the launch
  memory's.
-/
import proofs.«138064_j11647951307437_2_alg».proof.Proof.KernelRun
import proofs.«138064_j11647951307437_2_alg».proof.Proof.FirstLaunch
import proofs.«138064_j11647951307437_2_alg».proof.Proof.SecondLaunch
import proofs.«138064_j11647951307437_2_alg».proof.Proof.ThirdLaunch
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

/-! ## The aggregation along the edges and the whole value -/

/-- Rows of a 128-column array gathered along the edges' sources (a negative index counted from the end), each weighted by
    its edge, and summed into the rows the edges' destinations name, from zero. -/
def aggregate128 (s : FVec Ideal S100000x128 .f32) (src dst : IVec S1600000 32) (ew : FVec Ideal S1600000 .f32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (mulf (F := Ideal)
      (Host.gather gather_S100000x128_S1600000x1_S1600000x128_1_0_n_n_0_1_1128 s
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 ew)))

/-- The same for a 40-column array. -/
def aggregate40 (s : FVec Ideal S100000x40 .f32) (src dst : IVec S1600000 32) (ew : FVec Ideal S1600000 .f32) :
    FVec Ideal S100000x40 .f32 :=
  Host.scatterAdd (F := Ideal) scatter_S100000x40_S1600000x1_S1600000x40_1_0_0_1
    (broadcastInDim S100000x40 ![] bcast_S_S100000x40 (constant (F := Ideal) S_ .f32 0x00000000#32))
    (broadcastInDim S1600000x1 ![0] bcast_S1600000_S1600000x1_0 dst)
    (mulf (F := Ideal)
      (Host.gather gather_S100000x40_S1600000x1_S1600000x40_1_0_n_n_0_1_140 s
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x40 ![0, 1] bcast_S1600000x1_S1600000x40_0_1
        (broadcastInDim S1600000x1 ![0] bcast_S1600000_S1600000x1_0 ew)))

/-- The two-layer graph convolution: features times first weights, aggregated, bias and maximum with zero, times second
    weights, aggregated, bias and log-softmax of each row. -/
def value (x : FVec Ideal S100000x256 .f32) (w1 : FVec Ideal S256x128 .f32) (b1 : FVec Ideal S128 .f32)
    (w2 : FVec Ideal S128x40 .f32) (b2 : FVec Ideal S40 .f32) (ew : FVec Ideal S1600000 .f32) (src dst : IVec S1600000 32) :
    FVec Ideal S100000x40 .f32 :=
  Cert.Gcn.biasLsm (N := 100000) (B := 40)
    (aggregate40
      (Cert.Gcn.reluDense (N := 100000) (K := 128) (B := 40)
        (aggregate128 (Cert.Gcn.dense (N := 100000) (K := 256) (B := 128) x w1) src dst ew)
        (shapeCast S1x128 b1 shapeCasts_S128_S1x128) w2)
      src dst ew)
    (shapeCast S1x40 b2 shapeCasts_S40_S1x40)

variable (m : (ℓ : Loc nD τ sig) → Buf (Elt Ideal) ℓ) (ρ : Dev nD → PrngReg)

/-! ## After the first launch -/

/-- The first launch leaves the product of the features with the first weights. -/
theorem after_first_product (c : Dev nD) : W1 m ρ c (Proc.devRef .tc main_v0)
    = Cert.Gcn.dense (N := 100000) (K := 256) (B := 128) (m ((c : Thread nD τ).loc main_arg0)) (m ((c : Thread nD τ).loc main_arg1)) :=
  (W1_arr m ρ c 2).trans (First.result (V0 m ρ) c)

theorem after_first_arg2 (c : Dev nD) : W1 m ρ c (Proc.devRef .tc main_arg2) = m ((c : Thread nD τ).loc main_arg2) :=
  W1_of_ne m ρ c main_arg2 (by decide)
theorem after_first_arg3 (c : Dev nD) : W1 m ρ c (Proc.devRef .tc main_arg3) = m ((c : Thread nD τ).loc main_arg3) :=
  W1_of_ne m ρ c main_arg3 (by decide)
theorem after_first_arg4 (c : Dev nD) : W1 m ρ c (Proc.devRef .tc main_arg4) = m ((c : Thread nD τ).loc main_arg4) :=
  W1_of_ne m ρ c main_arg4 (by decide)
theorem after_first_arg5 (c : Dev nD) : W1 m ρ c (Proc.devRef .tc main_arg5) = m ((c : Thread nD τ).loc main_arg5) :=
  W1_of_ne m ρ c main_arg5 (by decide)
theorem after_first_arg6 (c : Dev nD) : W1 m ρ c (Proc.devRef .tc main_arg6) = m ((c : Thread nD τ).loc main_arg6) :=
  W1_of_ne m ρ c main_arg6 (by decide)
theorem after_first_arg7 (c : Dev nD) : W1 m ρ c (Proc.devRef .tc main_arg7) = m ((c : Thread nD τ).loc main_arg7) :=
  W1_of_ne m ρ c main_arg7 (by decide)

/-! ## What the second launch is given -/

/-- Its rows: the first product aggregated along the edges. -/
theorem second_rows (c : Dev nD) : V2 m ρ c main_v13
    = aggregate128 (Cert.Gcn.dense (N := 100000) (K := 256) (B := 128) (m ((c : Thread nD τ).loc main_arg0)) (m ((c : Thread nD τ).loc main_arg1)))
        (m ((c : Thread nD τ).loc main_arg6)) (m ((c : Thread nD τ).loc main_arg7)) (m ((c : Thread nD τ).loc main_arg5)) := by
  show StableHlo.after hostOps1 (W1 m ρ c) (Proc.devRef .tc main_v13) = _
  after_results
  rw [after_first_product, after_first_arg5, after_first_arg6, after_first_arg7]
  rfl

/-- Its bias: the first bias vector as a one-row matrix. -/
theorem second_bias (c : Dev nD) : V2 m ρ c main_v14 = shapeCast S1x128 (m ((c : Thread nD τ).loc main_arg2)) shapeCasts_S128_S1x128 := by
  show StableHlo.after hostOps1 (W1 m ρ c) (Proc.devRef .tc main_v14) = _
  after_results
  rw [after_first_arg2]
  rfl

/-- Its weights: the second weight matrix. -/
theorem second_weights (c : Dev nD) : V2 m ρ c main_arg3 = m ((c : Thread nD τ).loc main_arg3) := by
  show StableHlo.after hostOps1 (W1 m ρ c) (Proc.devRef .tc main_arg3) = _
  after_results
  exact after_first_arg3 m ρ c

/-! ## After the second launch -/

/-- The second launch leaves the hidden layer times the second weights. -/
theorem after_second_product (c : Dev nD) : W3 m ρ c (Proc.devRef .tc main_v15)
    = Cert.Gcn.reluDense (N := 100000) (K := 128) (B := 40)
        (aggregate128 (Cert.Gcn.dense (N := 100000) (K := 256) (B := 128) (m ((c : Thread nD τ).loc main_arg0)) (m ((c : Thread nD τ).loc main_arg1)))
          (m ((c : Thread nD τ).loc main_arg6)) (m ((c : Thread nD τ).loc main_arg7)) (m ((c : Thread nD τ).loc main_arg5)))
        (shapeCast S1x128 (m ((c : Thread nD τ).loc main_arg2)) shapeCasts_S128_S1x128) (m ((c : Thread nD τ).loc main_arg3)) := by
  refine (W3_arr m ρ c 3).trans ((Second.result (V2 m ρ) c).trans ?_)
  rw [second_rows, second_bias, second_weights]

theorem through_first_stretch (c : Dev nD) (b : Ref sig .tc)
    (h : StableHlo.after hostOps1 (W1 m ρ c) (Proc.devRef .tc b) = W1 m ρ c (Proc.devRef .tc b))
    (hb : ∀ w, Pipeline.arrRef spec1 w ≠ b) : W3 m ρ c (Proc.devRef .tc b) = W1 m ρ c (Proc.devRef .tc b) :=
  (W3_of_ne m ρ c b hb).trans h

theorem after_second_arg4 (c : Dev nD) : W3 m ρ c (Proc.devRef .tc main_arg4) = m ((c : Thread nD τ).loc main_arg4) :=
  (through_first_stretch m ρ c main_arg4 (by after_results) (by decide)).trans (after_first_arg4 m ρ c)
theorem after_second_arg5 (c : Dev nD) : W3 m ρ c (Proc.devRef .tc main_arg5) = m ((c : Thread nD τ).loc main_arg5) :=
  (through_first_stretch m ρ c main_arg5 (by after_results) (by decide)).trans (after_first_arg5 m ρ c)
theorem after_second_arg6 (c : Dev nD) : W3 m ρ c (Proc.devRef .tc main_arg6) = m ((c : Thread nD τ).loc main_arg6) :=
  (through_first_stretch m ρ c main_arg6 (by after_results) (by decide)).trans (after_first_arg6 m ρ c)
theorem after_second_arg7 (c : Dev nD) : W3 m ρ c (Proc.devRef .tc main_arg7) = m ((c : Thread nD τ).loc main_arg7) :=
  (through_first_stretch m ρ c main_arg7 (by after_results) (by decide)).trans (after_first_arg7 m ρ c)

/-! ## What the third launch is given, and the result -/

/-- Its rows: the second product aggregated along the edges. -/
theorem third_rows (c : Dev nD) : V4 m ρ c main_v28
    = aggregate40 (W3 m ρ c (Proc.devRef .tc main_v15))
        (m ((c : Thread nD τ).loc main_arg6)) (m ((c : Thread nD τ).loc main_arg7)) (m ((c : Thread nD τ).loc main_arg5)) := by
  show StableHlo.after hostOps2 (W3 m ρ c) (Proc.devRef .tc main_v28) = _
  after_results
  rw [after_second_arg5, after_second_arg6, after_second_arg7]
  rfl

/-- Its bias: the second bias vector as a one-row matrix. -/
theorem third_bias (c : Dev nD) : V4 m ρ c main_v29 = shapeCast S1x40 (m ((c : Thread nD τ).loc main_arg4)) shapeCasts_S40_S1x40 := by
  show StableHlo.after hostOps2 (W3 m ρ c) (Proc.devRef .tc main_v29) = _
  after_results
  rw [after_second_arg4]
  rfl

/-- The result array at the end of the chain is the two-layer graph convolution of the launch memory's arguments. -/
theorem result_value (c : Dev nD) : W5 m ρ c (Proc.devRef .tc main_v30)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (W5_arr m ρ c 2).trans ((Third.result (V4 m ρ) c).trans ?_)
  rw [third_rows, third_bias, after_second_product]
  rfl

/-- The run, read: every weakly fair execution terminates with the result array at the two-layer graph convolution of the
    arguments and the arguments as launched. -/
theorem run : θ_run defs (onTc (τ := τ) (main (F := Ideal))) ⟨m, fun _ => 0, ρ⟩ (fun r => ∀ c : Dev nD,
      r.2.mem ((c.tc : Thread nD τ).loc main_v30)
        = value (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_value m ρ c), (h c).2⟩) (run_result m ρ)

end Cert.KernelIdeal.Hand

end
-- ==== Proof.LibTypedRefs.lean ====
/-
  A typed reference's two transports cancel.

  A tensor value of a module-local function is held in a buffer whose type equals the value's; contents move between the
  two types by transport along that equation, there and back.  Back after there is the identity.
-/
import Idealize.ShloMosaic.Lib.StableHlo

namespace Cert.Lib

open Idealize.ShloMosaic Idealize.ShloMosaic.StableHlo

variable {sig : RefSig} {T : BufTy} {Val : EltTy → Type}

/-- Contents moved to the buffer's type and back are the contents. -/
theorem ofBuf_toBuf (x : TRef sig T) (v : T.Contents Val) : x.ofBuf (x.toBuf v) = v := by
  obtain ⟨r, h, h2, h3⟩ := x
  subst h
  rfl

end Cert.Lib
-- ==== Proof.Claims.lean ====
/-
  The reference's result is the kernel's, and the five claims.

  The reference computes, on whole arrays, features times first weights, the aggregation along the edges, the bias vector
  repeated along the rows, the maximum with a zero array, times second weights, the aggregation again, the second bias, and
  the log-softmax of each row as jax lowers it on the host. Its product is the first launch's whole-array product; its
  bias, maximum and second product are the second launch's layer, the bias vector read as a one-row matrix; its bias and
  log-softmax are the third launch's layer, where the host's extra maximum of the row maximum with −∞ changes nothing. The
  two aggregations are the same operations on both sides. So the reference's result term is the kernel's value of the same
  arguments, with nothing assumed finite.
-/
import proofs.«138064_j11647951307437_2_alg».proof.Defs
import proofs.«138064_j11647951307437_2_alg».proof.Proof.Gen.Kernel.Frame
import proofs.«138064_j11647951307437_2_alg».proof.Proof.Gen.Pre_finite_inputs
import proofs.«138064_j11647951307437_2_alg».proof.Proof.KernelValue
import proofs.«138064_j11647951307437_2_alg».proof.Proof.ReferenceRunPatched
import proofs.«138064_j11647951307437_2_alg».proof.Proof.GcnLayers

noncomputable section

open Idealize.ShloMosaic Idealize.ShloMosaic.TcCoe Idealize.SL.Sem

namespace Cert.ReferenceIdeal.Hand

open Cert.ReferenceIdeal Cert.ReferenceIdeal.Gen

/-- The reference run's result term is the two-layer graph convolution of its arguments. -/
theorem reference_value (m : (ℓ : Loc nD τ sig) → Buf (Elt Ideal) ℓ) (c : Dev nD) :
    Cert.ReferenceIdeal.ValueP.res_main_v35 m c
      = Cert.KernelIdeal.Hand.value (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.ValueP.res_main_v35
  refine (Cert.Gcn.host_biasLsm (N := 100000) (B := 40) _ _ bcast_S40_S1x40_1 bcast_S1x40_S100000x40_0_1
    Cert.KernelIdeal.Gen.shapeCasts_S40_S1x40 reducesTo_S100000x40_S100000_d1 h_S_ bcast_S_S100000 bcast_S100000_S100000x1_0
    bcast_S100000x1_S100000x40_0_1 _ rfl).trans ?_
  unfold Cert.KernelIdeal.Hand.value
  refine congrArg (fun a => Cert.Gcn.biasLsm (N := 100000) (B := 40) a _) ?_
  rw [Cert.Gcn.host_reluDense (N := 100000) (K := 128) (B := 40) dot_S100000x128_S128x40_S100000x40_1_0_0_1_n_n
    (dot_S100000x128_S128x40_S100000x40_1_0_0_1_n_n).wf rfl _ _ _ bcast_S128_S1x128_1 bcast_S1x128_S100000x128_0_1
    bcast_S_S100000x128 Cert.KernelIdeal.Gen.shapeCasts_S128_S1x128]
  rw [Cert.Gcn.host_dense (N := 100000) (K := 256) (B := 128) dot_S100000x256_S256x128_S100000x128_1_0_0_1_n_n
    (dot_S100000x256_S256x128_S100000x128_1_0_0_1_n_n).wf rfl]
  rfl

end Cert.ReferenceIdeal.Hand

namespace Cert.Proof.Claims

/-- The printed kernel runs and leaves its arguments: the generated frame. -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- Both runs end with the result at the two-layer graph convolution of arguments that agree. -/
theorem algebraic : Cert.algebraic_KernelIdeal_ReferenceIdeal := by
  intro m ρ m' ρ' _ hagree
  refine ⟨fun c => Cert.KernelIdeal.Hand.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Hand.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7⟩ := hagree c
  rw [Cert.ReferenceIdeal.Hand.reference_value m' c, e0, e1, e2, e3, e4, e5, e6, e7]

end Cert.Proof.Claims

end
-- ==== Proof.lean ====
/- The proof of `Cert.Claim`: a two-layer graph convolution as three kernel launches among host gathers and scatter-adds, against
   the same network in plain jnp, equal on the extended reals.

   Each launch's result array is one whole-array function of the arrays it is given (Proof/FirstLaunch.lean: a matrix
   product; Proof/SecondLaunch.lean: bias row, maximum with zero, matrix product; Proof/ThirdLaunch.lean: bias row and
   row-wise log-softmax), because every grid point writes back its block of that function and the blocks cover the array.
   The run's contents are followed from the result array back to the launch memory through the two host stretches
   (Proof/KernelRun.lean, Proof/KernelValue.lean), which gives the kernel's value as one function of the eight arguments.
   The reference's result term is that same function (Proof/Claims.lean, over the layer lemmas of Proof/GcnLayers.lean): its
   products, bias additions, maxima and log-softmax are the launches' layers operation by operation, the aggregation along
   the edges is spelt identically, and the only law used is that the maximum of −∞ with a running maximum from −∞ is that
   running maximum. Nothing is assumed finite. The ideal pass rewrote nothing, so `preserves` is trivial; the kernels' frames
   are the generated ones and the reference's frame is its run with the result dropped. -/
import proofs.«138064_j11647951307437_2_alg».proof.Defs
import proofs.«138064_j11647951307437_2_alg».proof.Proof.Claims
import proofs.«138064_j11647951307437_2_alg».proof.Proof.Gen.Kernel
import proofs.«138064_j11647951307437_2_alg».proof.Proof.Gen.KernelIdeal
import proofs.«138064_j11647951307437_2_alg».proof.Proof.Gen.ReferenceIdeal
import proofs.«138064_j11647951307437_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference, Claims.preserves, Claims.algebraic⟩

end Cert.Proof

end
